-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel

variable [Facts]

def fn {F : FTy → Type} [FloatOps F] (main_arg0 : FVec F S64x4096 .f32) (main_arg1 : FVec F S64x4096 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S64x4096 : Shape := ⟨2, ![64, 4096]⟩
abbrev S64x2048 : Shape := ⟨2, ![64, 2048]⟩
abbrev S16x256 : Shape := ⟨2, ![16, 256]⟩
abbrev S16x512 : Shape := ⟨2, ![16, 512]⟩
abbrev S16x2048 : Shape := ⟨2, ![16, 2048]⟩
abbrev S16x256x1 : Shape := ⟨3, ![16, 256, 1]⟩
abbrev S16x1x512 : Shape := ⟨3, ![16, 1, 512]⟩
abbrev S16x256x512 : Shape := ⟨3, ![16, 256, 512]⟩
abbrev S_ : Shape := ⟨0, ![]⟩
abbrev S64 : Shape := ⟨1, ![64]⟩

abbrev nBuf : Space → Nat
  | .hbm => 31
  | .vmem => 12
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S64x2048, .f32⟩
  | .hbm, ⟨3, _⟩ => ⟨S64x2048, .f32⟩
  | .hbm, ⟨4, _⟩ => ⟨S64x2048, .f32⟩
  | .hbm, ⟨5, _⟩ => ⟨S64x2048, .f32⟩
  | .hbm, ⟨6, _⟩ => ⟨S64x2048, .f32⟩
  | .hbm, ⟨7, _⟩ => ⟨S64x2048, .f32⟩
  | .hbm, ⟨8, _⟩ => ⟨S_, .f32⟩
  | .hbm, ⟨9, _⟩ => ⟨S64x2048, .f32⟩
  | .hbm, ⟨10, _⟩ => ⟨S64x2048, .f32⟩
  | .hbm, ⟨11, _⟩ => ⟨S64x2048, .f32⟩
  | .hbm, ⟨12, _⟩ => ⟨S_, .f32⟩
  | .hbm, ⟨13, _⟩ => ⟨S64x2048, .f32⟩
  | .hbm, ⟨14, _⟩ => ⟨S64x2048, .f32⟩
  | .hbm, ⟨15, _⟩ => ⟨S64x2048, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | .local _ .vmem, ⟨9, _⟩ => ⟨S16x512, .f32⟩
  | .local _ .vmem, ⟨10, _⟩ => ⟨S16x2048, .f32⟩
  | .local _ .vmem, ⟨11, _⟩ => ⟨S16x2048, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c256_i32 : BitVec 32 := 256#32
  let v37 : BitVec 32 := Scalar.muli arg2 c256_i32
  v37
def k0_off1 (i : grid0.Coords) : Fin 2 → Nat :=
  let c0_17 : Index := 0#32
  let arg2 : BitVec 32 := BitVec.ofNat 32 (i 2).val
  let c256_i32 : BitVec 32 := 256#32
  let v37 : BitVec 32 := Scalar.muli arg2 c256_i32
  let v38 : BitVec 32 := v37
  let v39 : Index := Scalar.indexCast v38
  ![0, v39.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  slices_S64x4096_S64x2048_0_0 : S64x4096.Slices ![0, 0] S64x2048
  slices_S64x4096_S64x2048_0_2048 : S64x4096.Slices ![0, 2048] S64x2048
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x512_S16x512_0_0 : ∀ a, (![0, 0] : Fin 2 → Nat) a + S16x512.size a ≤ S16x512.size a
  h_S16x512 : 0 < S16x512.numel
  shapeCasts_S16x512_S16x512 : S16x512.ShapeCasts S16x512
  shapeCasts_S16x256_S16x256x1 : S16x256.ShapeCasts S16x256x1
  shapeCasts_S16x512_S16x1x512 : S16x512.ShapeCasts S16x1x512
  broadcasts_S16x256x1_S16x256x512 : S16x256x1.Broadcasts S16x256x512
  broadcasts_S16x1x512_S16x256x512 : S16x1x512.Broadcasts S16x256x512
  reduces_S16x256x512_S16x512 : S16x256x512.Reduces [1] S16x512
  reduces_S16x256x512_S16x256 : S16x256x512.Reduces [2] S16x256
  inb_S16x2048_S16x2048_0_0 : ∀ a, (![0, 0] : Fin 2 → Nat) a + S16x2048.size a ≤ S16x2048.size a
  h_S16x2048 : 0 < S16x2048.numel
  bcast_S_S64x2048 : S_.BroadcastsInDim S64x2048 (![] : Fin 0 → Fin S64x2048.rank)
  reducesTo_S64x2048_S64_d1 : S64x2048.ReducesTo [1] S64
  h_S_ : 0 < S_.numel
  bcast_S_S64 : S_.BroadcastsInDim S64 (![] : Fin 0 → Fin S64.rank)
  reducesTo_S64_S_d0 : S64.ReducesTo [0] S_
  hrank0 : 0 < grid0.rank
  k0_mult1_dvd : ∀ i : grid0.Coords, 256 ∣ (k0_mult1 i).toNat
  k0_off1_inb : ∀ i : grid0.Coords, ∀ a, (k0_off1 i) a + S16x256.size a ≤ S16x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S64x2048.size a
  hwx0_0 : ∀ i : grid0.Coords, EltTy.bits .f32 = 32 ∨ (Rect.block (s := S64x2048) S16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S64x2048.size a
  hwx0_1 : ∀ i : grid0.Coords, EltTy.bits .f32 = 32 ∨ (Rect.block (s := S64x2048) S16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S64x2048.size a
  hwx0_2 : ∀ i : grid0.Coords, EltTy.bits .f32 = 32 ∨ (Rect.block (s := S64x2048) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S64x2048.size a
  hwx0_3 : ∀ i : grid0.Coords, EltTy.bits .f32 = 32 ∨ (Rect.block (s := S64x2048) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S64x2048.size a
  hwx0_4 : ∀ i : grid0.Coords, EltTy.bits .f32 = 32 ∨ (Rect.block (s := S64x2048) S16x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x2048.size a ≤ S64x2048.size a
  hwx0_5 : ∀ i : grid0.Coords, EltTy.bits .f32 = 32 ∨ (Rect.block (s := S64x2048) S16x2048.size (cc0_transform_5 i) (hinb0_5 i)).WholeWords (EltTy.packing .f32)

variable [Facts₀]

abbrev win0_0 : Pipeline.Window sig grid0 :=
  Pipeline.Window.ofSpec (Memref.whole main_v0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S16x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S16x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x4096 : Shape := ⟨2, ![64, 4096]⟩
abbrev S64x2048 : Shape := ⟨2, ![64, 2048]⟩
abbrev S64x2048x1 : Shape := ⟨3, ![64, 2048, 1]⟩
abbrev S64x2048x2 : Shape := ⟨3, ![64, 2048, 2]⟩
abbrev S_ : Shape := ⟨0, ![]⟩
abbrev S64x2048x2048 : Shape := ⟨3, ![64, 2048, 2048]⟩
abbrev S64x1x2048 : Shape := ⟨3, ![64, 1, 2048]⟩
abbrev S64 : Shape := ⟨1, ![64]⟩

abbrev nBuf : Space → Nat
  | .hbm => 51
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S64x2048, .f32⟩
  | .hbm, ⟨3, _⟩ => ⟨S64x2048, .f32⟩
  | .hbm, ⟨4, _⟩ => ⟨S64x2048x1, .f32⟩
  | .hbm, ⟨5, _⟩ => ⟨S64x2048x1, .f32⟩
  | .hbm, ⟨6, _⟩ => ⟨S64x2048x2, .f32⟩
  | .hbm, ⟨7, _⟩ => ⟨S64x2048, .f32⟩
  | .hbm, ⟨8, _⟩ => ⟨S64x2048, .f32⟩
  | .hbm, ⟨9, _⟩ => ⟨S64x2048x1, .f32⟩
  | .hbm, ⟨10, _⟩ => ⟨S64x2048x1, .f32⟩
  | .hbm, ⟨11, _⟩ => ⟨S64x2048x2, .f32⟩
  | .hbm, ⟨12, _⟩ => ⟨S64x2048x2, .f32⟩
  | .hbm, ⟨13, _⟩ => ⟨S_, .f32⟩
  | .hbm, ⟨14, _⟩ => ⟨S64x2048, .f32⟩
  | .hbm, ⟨15, _⟩ => ⟨S64x2048x2, .f32⟩
  | .hbm, ⟨16, _⟩ => ⟨S_, .f32⟩
  | .hbm, ⟨17, _⟩ => ⟨S64x2048, .f32⟩
  | .hbm, ⟨18, _⟩ => ⟨S64x2048x2048, .f32⟩
  | .hbm, ⟨19, _⟩ => ⟨S64x2048x1, .f32⟩
  | .hbm, ⟨20, _⟩ => ⟨S64x1x2048, .f32⟩
  | .hbm, ⟨21, _⟩ => ⟨S64x2048x2048, .f32⟩
  | .hbm, ⟨22, _⟩ => ⟨S64x2048x2048, .f32⟩
  | .hbm, ⟨23, _⟩ => ⟨S64x2048x2048, .f32⟩
  | .hbm, ⟨24, _⟩ => ⟨S_, .f32⟩
  | .hbm, ⟨25, _⟩ => ⟨S64x2048x2048, .f32⟩
  | .hbm, ⟨26, _⟩ => ⟨S64x2048x2048, .f32⟩
  | .hbm, ⟨27, _⟩ => ⟨S64x2048x2048, .f32⟩
  | .hbm, ⟨28, _⟩ => ⟨S_, .f32⟩
  | .hbm, ⟨29, _⟩ => ⟨S64x2048x2048, .f32⟩
  | .hbm, ⟨30, _⟩ => ⟨S64x2048x2048, .f32⟩
  | .hbm, ⟨31, _⟩ => ⟨S64x2048x2048, .f32⟩
  | .hbm, ⟨32, _⟩ => ⟨S_, .f32⟩
  | .hbm, ⟨33, _⟩ => ⟨S64x2048, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64x2048, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  slices_S64x4096_S64x2048_0_0 : S64x4096.Slices ![0, 0] S64x2048
  slices_S64x4096_S64x2048_0_2048 : S64x4096.Slices ![0, 2048] S64x2048
  bcast_S64x2048_S64x2048x1_0_1 : S64x2048.BroadcastsInDim S64x2048x1 (![0, 1] : Fin 2 → Fin S64x2048x1.rank)
  concatenates_S64x2048x1_S64x2048x1_S64x2048x2_d2 : Shape.Concatenates [S64x2048x1, S64x2048x1] S64x2048x2 2
  reducesTo_S64x2048x2_S64x2048_d2 : S64x2048x2.ReducesTo [2] S64x2048
  h_S_ : 0 < S_.numel
  bcast_S64x2048_S64x1x2048_0_2 : S64x2048.BroadcastsInDim S64x1x2048 (![0, 2] : Fin 2 → Fin S64x1x2048.rank)
  bcast_S64x2048x1_S64x2048x2048_0_1_2 : S64x2048x1.BroadcastsInDim S64x2048x2048 (![0, 1, 2] : Fin 3 → Fin S64x2048x2048.rank)
  bcast_S64x1x2048_S64x2048x2048_0_1_2 : S64x1x2048.BroadcastsInDim S64x2048x2048 (![0, 1, 2] : Fin 3 → Fin S64x2048x2048.rank)
  bcast_S_S64x2048x2048 : S_.BroadcastsInDim S64x2048x2048 (![] : Fin 0 → Fin S64x2048x2048.rank)
  reducesTo_S64x2048x2048_S64x2048_d1 : S64x2048x2048.ReducesTo [1] S64x2048
  reducesTo_S64x2048_S64_d1 : S64x2048.ReducesTo [1] S64
  bcast_S_S64 : S_.BroadcastsInDim S64 (![] : Fin 0 → Fin S64.rank)
  reducesTo_S64x2048x2048_S64x2048_d2 : S64x2048x2048.ReducesTo [2] S64x2048
  reducesTo_S64_S_d0 : S64.ReducesTo [0] S_
  dot_S64x2048x2_S64x2048x2_S64x2048x2048_2_2_1_1_0_0_wf : DotDims.WF S64x2048x2 S64x2048x2 S64x2048x2048 [2] [2] [1] [1] [0] [0]

variable [Facts₀]

def dot_S64x2048x2_S64x2048x2_S64x2048x2048_2_2_1_1_0_0 : DotDims S64x2048x2 S64x2048x2 S64x2048x2048 where
  lhsContracting := [2]
  rhsContracting := [2]
  lhsNonContracting := [1]
  rhsNonContracting := [1]
  lhsBatch := [0]
  rhsBatch := [0]
  wf := dot_S64x2048x2_S64x2048x2_S64x2048x2048_2_2_1_1_0_0_wf

class Facts : Prop extends Facts₀ where

variable [Facts]
-- ==== Proof.K.Outs.lean ====
/-
  What the two result blocks hold after the body at each grid point, and the proof data of the pipeline.

  The grid is (batch block bb, target tile jb, predicted tile ib), ib innermost: point t has ib = t mod 8 and
  (jb, ib) = (0, 0) exactly when t mod 32 = 0.
  * Result 0's block (16 rows x 512 target columns, indexed by (bb, jb)) is a running minimum over the predicted
    tiles: at ib = 0 it is restarted from +inf, at every point it becomes min(previous, column minima of the tile).
  * Result 1's block (16 rows x all 2048 predicted columns, indexed by bb alone) is a running minimum over the
    target tiles: at (jb, ib) = (0, 0) it is restarted from +inf, and at every point only the 256 columns of the
    current predicted tile become min(previous there, row minima of the tile).
-/
import proofs.«137396_j22797686407325_2_alg».proof.Proof.Gen.Kernel.Frame
import proofs.«137396_j22797686407325_2_alg».proof.Proof.Gen.Kernel.Skeleton
import proofs.«137396_j22797686407325_2_alg».proof.Proof.Gen.Kernel.Points

set_option maxRecDepth 16384

noncomputable section

namespace Cert.Kernel.Hand

open Idealize.ShloMosaic Idealize.ShloMosaic.TcCoe
open Idealize.SL Idealize.SL.RA Idealize.SL.BI Idealize.SL.Sem
open Idealize.ShloMosaic.Pipeline (Dat Cfg Window)
open Cert.Kernel Cert.Kernel.Gen

variable {F : FTy → Type} [FloatOps F]

/-- The rectangle of result 1's block that grid point i updates: all 16 rows, the 256 columns of predicted tile i 2. -/
abbrev R5 (i : grid0.Coords) : Rect S16x2048 := Rect.unit (s := S16x2048) (k0_off1 i) S16x256.size (k0_off1_inb i)

/-- Result 0's block after a point, from the four input blocks and the block's previous contents. -/
def step4 (x0 x1 : Vec F S16x256 .f32) (x2 x3 : Vec F S16x512 .f32) (xo : Vec F S16x512 .f32) : Vec F S16x512 .f32 :=
  k0_pay6 x0 x1 x2 x3 xo

/-- Result 1's block after a point: the previous contents with the current tile's columns lowered to the row minima. -/
def step5 (i : grid0.Coords) (x0 x1 : Vec F S16x256 .f32) (x2 x3 : Vec F S16x512 .f32) (xo : Vec F S16x2048 .f32) :
    Vec F S16x2048 .f32 :=
  (R5 i).overlay xo (k0_pay2 (k0_pay4 x0 x1 x2 x3) (View.ld xo (R5 i)))

variable (m : (ℓ : Loc nD τ sig) → Buf (Elt F) ℓ)

/-- Result 0's staging block after the body at position n. -/
def outs4 (c : Dev nD) : (n : ℕ) → n < cfg0.N → Vec F S16x512 .f32
  | 0, hn => step4 (iblk m c 0 ⟨0, hn⟩) (iblk m c 1 ⟨0, hn⟩) (iblk m c 2 ⟨0, hn⟩) (iblk m c 3 ⟨0, hn⟩) (k0_pay5 (F := F))
  | n + 1, hn =>
    if (n + 1) % 8 = 0 then
      step4 (iblk m c 0 ⟨n + 1, hn⟩) (iblk m c 1 ⟨n + 1, hn⟩) (iblk m c 2 ⟨n + 1, hn⟩) (iblk m c 3 ⟨n + 1, hn⟩) (k0_pay5 (F := F))
    else
      step4 (iblk m c 0 ⟨n + 1, hn⟩) (iblk m c 1 ⟨n + 1, hn⟩) (iblk m c 2 ⟨n + 1, hn⟩) (iblk m c 3 ⟨n + 1, hn⟩)
        (outs4 c n (Nat.lt_of_succ_lt hn))

/-- Result 1's staging block after the body at position n. -/
def outs5 (c : Dev nD) : (n : ℕ) → n < cfg0.N → Vec F S16x2048 .f32
  | 0, hn => step5 (grid0.coords ⟨0, hn⟩) (iblk m c 0 ⟨0, hn⟩) (iblk m c 1 ⟨0, hn⟩) (iblk m c 2 ⟨0, hn⟩) (iblk m c 3 ⟨0, hn⟩) (k0_pay1 (F := F))
  | n + 1, hn =>
    if (n + 1) % 32 = 0 then
      step5 (grid0.coords ⟨n + 1, hn⟩) (iblk m c 0 ⟨n + 1, hn⟩) (iblk m c 1 ⟨n + 1, hn⟩) (iblk m c 2 ⟨n + 1, hn⟩) (iblk m c 3 ⟨n + 1, hn⟩) (k0_pay1 (F := F))
    else
      step5 (grid0.coords ⟨n + 1, hn⟩) (iblk m c 0 ⟨n + 1, hn⟩) (iblk m c 1 ⟨n + 1, hn⟩) (iblk m c 2 ⟨n + 1, hn⟩) (iblk m c 3 ⟨n + 1, hn⟩)
        (outs5 c n (Nat.lt_of_succ_lt hn))

theorem outs4_reset (c : Dev nD) (t : Fin cfg0.N) (h : t.val % 8 = 0) :
    outs4 m c t.val t.isLt = step4 (iblk m c 0 t) (iblk m c 1 t) (iblk m c 2 t) (iblk m c 3 t) (k0_pay5 (F := F)) := by
  obtain ⟨n, hn⟩ := t
  cases n with
  | zero => rfl
  | succ n => exact (if_pos h).trans rfl

theorem outs4_acc (c : Dev nD) (t : Fin cfg0.N) (h : ¬t.val % 8 = 0) :
    outs4 m c t.val t.isLt = step4 (iblk m c 0 t) (iblk m c 1 t) (iblk m c 2 t) (iblk m c 3 t)
      (outs4 m c (t.val - 1) (Nat.lt_of_le_of_lt (Nat.sub_le _ _) t.isLt)) := by
  obtain ⟨n, hn⟩ := t
  cases n with
  | zero => exact absurd (Nat.zero_mod _) h
  | succ n => exact (if_neg h).trans rfl

theorem outs5_reset (c : Dev nD) (t : Fin cfg0.N) (h : t.val % 32 = 0) :
    outs5 m c t.val t.isLt = step5 (grid0.coords t) (iblk m c 0 t) (iblk m c 1 t) (iblk m c 2 t) (iblk m c 3 t) (k0_pay1 (F := F)) := by
  obtain ⟨n, hn⟩ := t
  cases n with
  | zero => rfl
  | succ n => exact (if_pos h).trans rfl

theorem outs5_acc (c : Dev nD) (t : Fin cfg0.N) (h : ¬t.val % 32 = 0) :
    outs5 m c t.val t.isLt = step5 (grid0.coords t) (iblk m c 0 t) (iblk m c 1 t) (iblk m c 2 t) (iblk m c 3 t)
      (outs5 m c (t.val - 1) (Nat.lt_of_le_of_lt (Nat.sub_le _ _) t.isLt)) := by
  obtain ⟨n, hn⟩ := t
  cases n with
  | zero => exact absurd (Nat.zero_mod _) h
  | succ n => exact (if_neg h).trans rfl

/-- The proof data of the one pipeline on core c: the arrays as the region finds them; after the body at point t each
    input's buffer still at its block and the two results' buffers at outs4 / outs5. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outs4 m c t.val t.isLt
    | ⟨5, _⟩ => outs5 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outs4 m c t.val t.isLt := by dsimp only [dats]
theorem after0_5 (c : Dev nD) (t : Fin cfg0.N) : (dats m 0 c).after 5 t = outs5 m c t.val t.isLt := by dsimp only [dats]

end Cert.Kernel.Hand

end
-- ==== Proof.K.Cases.lean ====
/-
  The two branch conditions of the body as functions of the grid point, in closed form over the grid, and the
  staging memrefs the pipeline calls the body with at a point.
  Condition 0 (restart result 0's running minimum) holds when the predicted-tile coordinate is 0: points = 0 mod 8.
  Condition 1 (restart result 1's running minimum) holds when both tile coordinates are 0: points = 0 mod 32.
-/
import proofs.«137396_j22797686407325_2_alg».proof.Proof.K.Outs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the first conditional of the body, from the grid coordinates. -/
abbrev cond0_0 (i : grid0.Coords) : Prop :=
  (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the second conditional of the body, from the grid coordinates. -/
abbrev cond0_1 (i : grid0.Coords) : Prop :=
  (Scalar.cmpi .ne (Scalar.extui (Scalar.andi (Scalar.cmpi .eq (BitVec.ofNat 32 (i 1).val) 0#32)
    (Scalar.cmpi .eq (BitVec.ofNat 32 (i 2).val) 0#32))) 0#32) = 1#1
theorem hcond0_1 : ∀ t : Fin cfg0.N, cond0_1 (grid0.coords t) ↔ t.val % 32 = 0 :=
  (by decide +kernel : ∀ t : Fin grid0.N, cond0_1 (grid0.coords t) ↔ t.val % 32 = 0)

/-- Each window's current staging memref at point t, spelled as the pipeline passes it, and its wholeness. -/
abbrev ms0_0 (t : Fin cfg0.N) : Memref sig .tc .vmem S16x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x2048 .f32 := win0_5.stage (cfg0.slots t 5)
abbrev hs0_5 (t : Fin cfg0.N) : (ms0_5 t).IsWhole := hstage0_5 ((cfg0.slots t 5).cast nbuf0_5)

end Cert.Kernel.Hand

end
-- ==== Proof.LibMem.lean ====
/-
  What a memref reads back after the stores of a body, and what its loads read: facts about one view and its
  list of stores, no program. A store through a rectangle replaces the rectangle's part of what the memref read
  before (an overlay); a store through the whole block leaves its payload; a load of a whole memref at named
  contents reads those contents at the loaded rectangle.
-/
import Idealize.ShloMosaic.Lib.Pipeline.FrameBody
import Idealize.ShloMosaic.Lib.Pipeline.Value
import Idealize.ShloMosaic.Lib.Pipeline.Frame

noncomputable section

namespace Chamfer.Mem

open Idealize.ShloMosaic Idealize.SL

variable {sig : RefSig} {κ : Kind} {sp : Space} {s : Shape} {e : EltTy} {Val : EltTy → Type}

/-- The zero offsets of a rank-2 block, however spelt. -/
theorem hz : (![0, 0] : Fin 2 → Nat) = fun _ => 0 := funext fun a => by fin_cases a <;> rfl

/-- A load through a rectangle of a whole memref holding X reads X at the rectangle. -/
theorem readAt_unread {m : Memref sig κ sp s e} (h : m.IsWhole) (r : Rect s) (X : s.Idx → Val e) :
    m.view.readAt Val r.toLoadRect (h.unread X) = View.ld X r := by
  rw [View.readAt_eq_ld, h.read_unread]

/-- A load of the whole block (zero offsets, the block's own sizes) of a whole memref holding X reads X. -/
theorem readAt_unread_whole {m : Memref sig κ sp s e} (h : m.IsWhole) {off : Fin s.rank → Nat} (hoff : off = fun _ => 0)
    (inb : ∀ a, off a + s.size a ≤ s.size a) (X : s.Idx → Val e) :
    m.view.readAt Val (Rect.unit off s.size inb).toLoadRect (h.unread X) = X := by
  rw [readAt_unread, View.ld_unit_zero hoff]

/-- After a last store through the whole block the memref reads that store's payload, whatever came before. -/
theorem read_writes_whole (v : View sig κ sp s e) (f : v.ty.Contents Val) {off : Fin s.rank → Nat} (hoff : off = fun _ => 0)
    (inb : ∀ a, off a + s.size a ≤ s.size a) (w : s.Idx → Val e) (L : List (View.Piece Val s e)) :
    v.read Val (v.writes Val f ((⟨Rect.unit off s.size inb, w⟩ : View.Piece Val s e) :: L)) = w := by
  subst hoff; funext y
  have e := View.read_writes_cons_emb v f (Rect.whole s) w L y
  rw [Rect.emb_whole_apply] at e
  exact e

/-- After a last store through a rectangle the memref reads what it read before the store, the rectangle's part
    replaced by the payload. -/
theorem read_writes_cons (v : View sig κ sp s e) (f : v.ty.Contents Val) (r : Rect s) (w : r.shape.Idx → Val e)
    (L : List (View.Piece Val s e)) :
    v.read Val (v.writes Val f ((⟨r, w⟩ : View.Piece Val s e) :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem r _ _ hy]

/-- A load through a rectangle after a last store through the whole block reads the store's payload at the rectangle,
    whatever the memref held before. -/
theorem readAt_writes_whole_ld (v : View sig κ sp s e) (f : v.ty.Contents Val) {off : Fin s.rank → Nat} (hoff : off = fun _ => 0)
    (inb : ∀ a, off a + s.size a ≤ s.size a) (w : s.Idx → Val e) (L : List (View.Piece Val s e)) (r : Rect s) :
    v.readAt Val r.toLoadRect (v.writes Val f ((⟨Rect.unit off s.size inb, w⟩ : View.Piece Val s e) :: L)) = View.ld w r := by
  rw [View.readAt_eq_ld, read_writes_whole v f hoff]

/-- One store through a rectangle of a whole memref holding X leaves X with the rectangle's part replaced. -/
theorem read_writes_unread {m : Memref sig κ sp s e} (h : m.IsWhole) (X : s.Idx → Val e) (r : Rect s) (w : r.shape.Idx → Val e) :
    m.view.read Val (m.view.writes Val (h.unread X) [(⟨r, w⟩ : View.Piece Val s e)]) = r.overlay X w := by
  rw [read_writes_cons, View.writes_nil, h.read_unread]

/-- A load of the whole block right after a store through the whole block reads the store's payload. -/
theorem readCov_whole [∀ e, Nonempty (Val e)] (v : View sig κ sp s e) {off : Fin s.rank → Nat}
    (inb : ∀ a, off a + s.size a ≤ s.size a) (w : s.Idx → Val e) (L : List (View.Piece Val s e)) :
    v.readCov ((⟨Rect.unit off s.size inb, w⟩ : View.Piece Val s e) :: L) (Rect.unit off s.size inb).toLoadRect = w :=
  View.readCov_cons_toLoadRect v (Rect.unit off s.size inb) w L

/-- A load through a rectangle after a last store through the whole block reads the store's payload at the rectangle. -/
theorem readCov_whole_ld [∀ e, Nonempty (Val e)] (v : View sig κ sp s e) {off : Fin s.rank → Nat} (hoff : off = fun _ => 0)
    (inb : ∀ a, off a + s.size a ≤ s.size a) (w : s.Idx → Val e) (L : List (View.Piece Val s e)) (r : Rect s) :
    v.readCov ((⟨Rect.unit off s.size inb, w⟩ : View.Piece Val s e) :: L) r.toLoadRect = View.ld w r := by
  rw [View.readCov_eq_canon', View.canon_cons_unit_zero hoff]

end Chamfer.Mem

end
-- ==== Proof.K.RunA.lean ====
/-
  The body at a point where both running minima are restarted (predicted tile 0 of target tile 0): whatever the two result buffers held, result 0's block ends at the column minima of the tile against +inf and result 1's block at +inf with the current tile's columns lowered to the row minima.
-/
import proofs.«137396_j22797686407325_2_alg».proof.Proof.K.Cases
import proofs.«137396_j22797686407325_2_alg».proof.Proof.LibMem

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runA (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x2048 .f32) (harg8 : arg8.IsWhole) (hc0 : cond0_0 i) (hc1 : cond0_1 i)
    (x0 : Vec F S16x256 .f32) (x1 : Vec F S16x256 .f32) (x2 : Vec F S16x512 .f32) (x3 : Vec F S16x512 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (step4 x0 x1 x2 x3 (k0_pay5 (F := F))) ∗ owns (c : Thread nD τ) arg8 fullShare (step5 i x0 x1 x2 x3 (k0_pay1 (F := F)))) -∗ K ⟨⟩))
          ⊢ wp frame (wpE (defs₀ (F := F)) Variants.none c none) E (cc0_chamfer_kernel i arg3 harg3 arg4 harg4 arg5 harg5 arg6 harg6 arg7 harg7 arg8 harg8) K := by
  intro E K
  simp only [cc0_chamfer_kernel_eq_skeleton]; unfold cc0_chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    -- result 0: the last store covers the block; the load after the restarting store reads back that store's +inf block
    refine (Chamfer.Mem.read_writes_whole _ _ Chamfer.Mem.hz _ _ _).trans ?_
    sl_unfold_run_names
    rw [Chamfer.Mem.readAt_unread_whole harg3 Chamfer.Mem.hz, Chamfer.Mem.readAt_unread_whole harg4 Chamfer.Mem.hz,
      Chamfer.Mem.readAt_unread_whole harg5 Chamfer.Mem.hz, Chamfer.Mem.readAt_unread_whole harg6 Chamfer.Mem.hz,
      Chamfer.Mem.readCov_whole arg7.view]
    rfl
  iexists _; isplitr; swap; · iexact H5
  ipureintro
  -- result 1: the restarting store fills the block with +inf; the slice loaded after it reads +inf there, and the
  -- slice store replaces the tile's columns of the +inf block
  refine (Chamfer.Mem.read_writes_cons _ _ _ _ _).trans ?_
  sl_unfold_run_names
  rw [Chamfer.Mem.readAt_unread_whole harg3 Chamfer.Mem.hz, Chamfer.Mem.readAt_unread_whole harg4 Chamfer.Mem.hz,
    Chamfer.Mem.readAt_unread_whole harg5 Chamfer.Mem.hz, Chamfer.Mem.readAt_unread_whole harg6 Chamfer.Mem.hz,
    Chamfer.Mem.read_writes_whole arg8.view _ Chamfer.Mem.hz, Chamfer.Mem.readAt_writes_whole_ld arg8.view _ Chamfer.Mem.hz]
  rfl

end Cert.Kernel.Hand

end
-- ==== Proof.K.RunB.lean ====
/-
  The body at a point where neither running minimum is restarted (a later predicted tile): both result blocks are carried.
-/
import proofs.«137396_j22797686407325_2_alg».proof.Proof.K.Cases
import proofs.«137396_j22797686407325_2_alg».proof.Proof.LibMem

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runB (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x2048 .f32) (harg8 : arg8.IsWhole) (hc0 : ¬cond0_0 i) (hc1 : ¬cond0_1 i)
    (x0 : Vec F S16x256 .f32) (x1 : Vec F S16x256 .f32) (x2 : Vec F S16x512 .f32) (x3 : Vec F S16x512 .f32) (xo4 : Vec F S16x512 .f32) (xo5 : Vec F S16x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (step4 x0 x1 x2 x3 xo4) ∗ owns (c : Thread nD τ) arg8 fullShare (step5 i x0 x1 x2 x3 xo5)) -∗ K ⟨⟩))
          ⊢ wp frame (wpE (defs₀ (F := F)) Variants.none c none) E (cc0_chamfer_kernel i arg3 harg3 arg4 harg4 arg5 harg5 arg6 harg6 arg7 harg7 arg8 harg8) K := by
  intro E K
  simp only [cc0_chamfer_kernel_eq_skeleton]; unfold cc0_chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    -- result 0: the one store covers the block; its payload's five loads read the blocks' contents
    refine (Chamfer.Mem.read_writes_whole _ _ Chamfer.Mem.hz _ _ _).trans ?_
    rw [Chamfer.Mem.readAt_unread_whole harg3 Chamfer.Mem.hz, Chamfer.Mem.readAt_unread_whole harg4 Chamfer.Mem.hz,
      Chamfer.Mem.readAt_unread_whole harg5 Chamfer.Mem.hz, Chamfer.Mem.readAt_unread_whole harg6 Chamfer.Mem.hz,
      Chamfer.Mem.readAt_unread_whole harg7 Chamfer.Mem.hz]
    rfl
  iexists _; isplitr; swap; · iexact H5
  ipureintro
  -- result 1: the one store replaces the tile's columns of the previous contents; the loaded slice is theirs
  refine (Chamfer.Mem.read_writes_unread harg8 xo5 _ _).trans ?_
  sl_unfold_run_names
  rw [Chamfer.Mem.readAt_unread_whole harg3 Chamfer.Mem.hz, Chamfer.Mem.readAt_unread_whole harg4 Chamfer.Mem.hz,
    Chamfer.Mem.readAt_unread_whole harg5 Chamfer.Mem.hz, Chamfer.Mem.readAt_unread_whole harg6 Chamfer.Mem.hz,
    Chamfer.Mem.readAt_unread harg8]
  rfl

end Cert.Kernel.Hand

end
-- ==== Proof.K.RunC.lean ====
/-
  The body at a point where only result 0's running minimum is restarted (predicted tile 0 of a later target tile): result 1's block is carried.
-/
import proofs.«137396_j22797686407325_2_alg».proof.Proof.K.Cases
import proofs.«137396_j22797686407325_2_alg».proof.Proof.LibMem

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runC (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x2048 .f32) (harg8 : arg8.IsWhole) (hc0 : cond0_0 i) (hc1 : ¬cond0_1 i)
    (x0 : Vec F S16x256 .f32) (x1 : Vec F S16x256 .f32) (x2 : Vec F S16x512 .f32) (x3 : Vec F S16x512 .f32) (xo5 : Vec F S16x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (step4 x0 x1 x2 x3 (k0_pay5 (F := F))) ∗ owns (c : Thread nD τ) arg8 fullShare (step5 i x0 x1 x2 x3 xo5)) -∗ K ⟨⟩))
          ⊢ wp frame (wpE (defs₀ (F := F)) Variants.none c none) E (cc0_chamfer_kernel i arg3 harg3 arg4 harg4 arg5 harg5 arg6 harg6 arg7 harg7 arg8 harg8) K := by
  intro E K
  simp only [cc0_chamfer_kernel_eq_skeleton]; unfold cc0_chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg3.eq_unread hf0; obtain rfl := harg4.eq_unread hf1; obtain rfl := harg5.eq_unread hf2; obtain rfl := harg6.eq_unread hf3
  obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    -- result 0: the last store covers the block; the load after the restarting store reads back that store's +inf block
    refine (Chamfer.Mem.read_writes_whole _ _ Chamfer.Mem.hz _ _ _).trans ?_
    sl_unfold_run_names
    rw [Chamfer.Mem.readAt_unread_whole harg3 Chamfer.Mem.hz, Chamfer.Mem.readAt_unread_whole harg4 Chamfer.Mem.hz,
      Chamfer.Mem.readAt_unread_whole harg5 Chamfer.Mem.hz, Chamfer.Mem.readAt_unread_whole harg6 Chamfer.Mem.hz,
      Chamfer.Mem.readCov_whole arg7.view]
    rfl
  iexists _; isplitr; swap; · iexact H5
  ipureintro
  -- result 1: the one store replaces the tile's columns of the previous contents; the loaded slice is theirs
  refine (Chamfer.Mem.read_writes_unread harg8 xo5 _ _).trans ?_
  sl_unfold_run_names
  rw [Chamfer.Mem.readAt_unread_whole harg3 Chamfer.Mem.hz, Chamfer.Mem.readAt_unread_whole harg4 Chamfer.Mem.hz,
    Chamfer.Mem.readAt_unread_whole harg5 Chamfer.Mem.hz, Chamfer.Mem.readAt_unread_whole harg6 Chamfer.Mem.hz,
    Chamfer.Mem.readAt_unread harg8]
  rfl

end Cert.Kernel.Hand

end
-- ==== Proof.K.Body.lean ====
/-
  The body obligation of the pipeline and the run of the whole program.

  At every grid point the four input buffers hold their blocks. Result 0's buffer holds what the point before left
  unless the predicted-tile coordinate is 0 (it is written back after predicted tile 7, so the buffer is then fresh and
  the body restarts it); result 1's buffer holds what the point before left unless both tile coordinates are 0 (it is
  written back after the last point of a batch block). In each of the three control cases the body's triple leaves the
  two result buffers at step4 / step5 of the contents found, which is what outs4 / outs5 say.
-/
import proofs.«137396_j22797686407325_2_alg».proof.Proof.K.RunA
import proofs.«137396_j22797686407325_2_alg».proof.Proof.K.RunB
import proofs.«137396_j22797686407325_2_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Away from predicted tile 0, result 0's buffer holds what the body left at the point before: it is written back only
    after predicted tile 7. -/
theorem before0_4_acc (c : Dev nD) (t : Fin cfg0.N) (h0 : ¬t.val % 8 = 0) (d) :
    (dats m 0 c).before 4 t d = outs4 m c (t.val - 1) (Nat.lt_of_le_of_lt (Nat.sub_le _ _) t.isLt) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-- Away from the first point of a batch block, result 1's buffer holds what the body left at the point before: it is
    written back only after the last point of a batch block. -/
theorem before0_5_acc (c : Dev nD) (t : Fin cfg0.N) (h1 : ¬t.val % 32 = 0) (d) :
    (dats m 0 c).before 5 t d = outs5 m c (t.val - 1) (Nat.lt_of_le_of_lt (Nat.sub_le _ _) t.isLt) := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    (fun _ => rfl) (fun _ _ => rfl)]
  dsimp only [dats]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1200000 in
/-- The body at any point: the closed forms of the two conditions say which case the point is in; a result buffer the
    case does not restart holds what the point before left; so that case's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 128 := lt_of_lt_of_eq t.isLt (show cfg0.N = 128 from N_0)
  by_cases h0 : t.val % 8 = 0
  · by_cases h1 : t.val % 32 = 0
    · rw [outs4_reset m c t h0, outs5_reset m c t h1]
      iintro ⟨HΦ, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ ((hcond0_0 t).mpr h0) ((hcond0_1 t).mpr h1) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [outs4_reset m c t h0, outs5_acc m c t h1]
      simp only [before0_5_acc m c t h1]
      iintro ⟨HΦ, Ho, ⟨%d0, H0⟩, ⟨%d1, H1⟩, ⟨%d2, H2⟩, ⟨%d3, H3⟩, ⟨%d4, H4⟩, ⟨%d5, H5⟩⟩
      iapply ((runC c (grid0.coords t) _ _ _ _ _ _ _ _ _ _ _ _ ((hcond0_0 t).mpr h0) (fun h => h1 ((hcond0_1 t).mp h)) (iblk m c 0 t) (iblk m c 1 t) (iblk m c 2 t) (iblk m c 3 t) _) Set.univ _)
      isplitl [H0]; · iexact H0
      isplitl [H1]; · iexact H1
      isplitl [H2]; · iexact H2
      isplitl [H3]; · iexact H3
      isplitl [H4]; · iexists _; iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
  · have h1 : ¬t.val % 32 = 0 := by omega
    rw [outs4_acc m c t h0, outs5_acc m c t h1]
    simp only [before0_4_acc m c t h0, before0_5_acc m c t h1]
    iintro ⟨HΦ, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _ _) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the program terminates, every array of the
    pipeline ends at what the library computes from the proof data, and every other unscoped buffer at what the host
    lines after the region make of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Outs.lean ====
/-
  What the two result blocks hold after the body at each grid point, and the proof data of the pipeline.

  The grid is (batch block bb, target tile jb, predicted tile ib), ib innermost: point t has ib = t mod 8 and
  (jb, ib) = (0, 0) exactly when t mod 32 = 0.
  * Result 0's block (16 rows x 512 target columns, indexed by (bb, jb)) is a running minimum over the predicted
    tiles: at ib = 0 it is restarted from +inf, at every point it becomes min(previous, column minima of the tile).
  * Result 1's block (16 rows x all 2048 predicted columns, indexed by bb alone) is a running minimum over the
    target tiles: at (jb, ib) = (0, 0) it is restarted from +inf, and at every point only the 256 columns of the
    current predicted tile become min(previous there, row minima of the tile).
-/
import proofs.«137396_j22797686407325_2_alg».proof.Proof.Gen.KernelIdeal.Frame
import proofs.«137396_j22797686407325_2_alg».proof.Proof.Gen.KernelIdeal.Skeleton
import proofs.«137396_j22797686407325_2_alg».proof.Proof.Gen.KernelIdeal.Points

set_option maxRecDepth 16384

noncomputable section

namespace Cert.KernelIdeal.Hand

open Idealize.ShloMosaic Idealize.ShloMosaic.TcCoe
open Idealize.SL Idealize.SL.RA Idealize.SL.BI Idealize.SL.Sem
open Idealize.ShloMosaic.Pipeline (Dat Cfg Window)
open Cert.KernelIdeal Cert.KernelIdeal.Gen

variable {F : FTy → Type} [FloatOps F]

/-- The rectangle of result 1's block that grid point i updates: all 16 rows, the 256 columns of predicted tile i 2. -/
abbrev R5 (i : grid0.Coords) : Rect S16x2048 := Rect.unit (s := S16x2048) (k0_off1 i) S16x256.size (k0_off1_inb i)

/-- Result 0's block after a point, from the four input blocks and the block's previous contents. -/
def step4 (x0 x1 : Vec F S16x256 .f32) (x2 x3 : Vec F S16x512 .f32) (xo : Vec F S16x512 .f32) : Vec F S16x512 .f32 :=
  k0_pay6 x0 x1 x2 x3 xo

/-- Result 1's block after a point: the previous contents with the current tile's columns lowered to the row minima. -/
def step5 (i : grid0.Coords) (x0 x1 : Vec F S16x256 .f32) (x2 x3 : Vec F S16x512 .f32) (xo : Vec F S16x2048 .f32) :
    Vec F S16x2048 .f32 :=
  (R5 i).overlay xo (k0_pay2 (k0_pay4 x0 x1 x2 x3) (View.ld xo (R5 i)))

variable (m : (ℓ : Loc nD τ sig) → Buf (Elt F) ℓ)

/-- Result 0's staging block after the body at position n. -/
def outs4 (c : Dev nD) : (n : ℕ) → n < cfg0.N → Vec F S16x512 .f32
  | 0, hn => step4 (iblk m c 0 ⟨0, hn⟩) (iblk m c 1 ⟨0, hn⟩) (iblk m c 2 ⟨0, hn⟩) (iblk m c 3 ⟨0, hn⟩) (k0_pay5 (F := F))
  | n + 1, hn =>
    if (n + 1) % 8 = 0 then
      step4 (iblk m c 0 ⟨n + 1, hn⟩) (iblk m c 1 ⟨n + 1, hn⟩) (iblk m c 2 ⟨n + 1, hn⟩) (iblk m c 3 ⟨n + 1, hn⟩) (k0_pay5 (F := F))
    else
      step4 (iblk m c 0 ⟨n + 1, hn⟩) (iblk m c 1 ⟨n + 1, hn⟩) (iblk m c 2 ⟨n + 1, hn⟩) (iblk m c 3 ⟨n + 1, hn⟩)
        (outs4 c n (Nat.lt_of_succ_lt hn))

/-- Result 1's staging block after the body at position n. -/
def outs5 (c : Dev nD) : (n : ℕ) → n < cfg0.N → Vec F S16x2048 .f32
  | 0, hn => step5 (grid0.coords ⟨0, hn⟩) (iblk m c 0 ⟨0, hn⟩) (iblk m c 1 ⟨0, hn⟩) (iblk m c 2 ⟨0, hn⟩) (iblk m c 3 ⟨0, hn⟩) (k0_pay1 (F := F))
  | n + 1, hn =>
    if (n + 1) % 32 = 0 then
      step5 (grid0.coords ⟨n + 1, hn⟩) (iblk m c 0 ⟨n + 1, hn⟩) (iblk m c 1 ⟨n + 1, hn⟩) (iblk m c 2 ⟨n + 1, hn⟩) (iblk m c 3 ⟨n + 1, hn⟩) (k0_pay1 (F := F))
    else
      step5 (grid0.coords ⟨n + 1, hn⟩) (iblk m c 0 ⟨n + 1, hn⟩) (iblk m c 1 ⟨n + 1, hn⟩) (iblk m c 2 ⟨n + 1, hn⟩) (iblk m c 3 ⟨n + 1, hn⟩)
        (outs5 c n (Nat.lt_of_succ_lt hn))

theorem outs4_reset (c : Dev nD) (t : Fin cfg0.N) (h : t.val % 8 = 0) :
    outs4 m c t.val t.isLt = step4 (iblk m c 0 t) (iblk m c 1 t) (iblk m c 2 t) (iblk m c 3 t) (k0_pay5 (F := F)) := by
  obtain ⟨n, hn⟩ := t
  cases n with
  | zero => rfl
  | succ n => exact (if_pos h).trans rfl

theorem outs4_acc (c : Dev nD) (t : Fin cfg0.N) (h : ¬t.val % 8 = 0) :
    outs4 m c t.val t.isLt = step4 (iblk m c 0 t) (iblk m c 1 t) (iblk m c 2 t) (iblk m c 3 t)
      (outs4 m c (t.val - 1) (Nat.lt_of_le_of_lt (Nat.sub_le _ _) t.isLt)) := by
  obtain ⟨n, hn⟩ := t
  cases n with
  | zero => exact absurd (Nat.zero_mod _) h
  | succ n => exact (if_neg h).trans rfl

theorem outs5_reset (c : Dev nD) (t : Fin cfg0.N) (h : t.val % 32 = 0) :
    outs5 m c t.val t.isLt = step5 (grid0.coords t) (iblk m c 0 t) (iblk m c 1 t) (iblk m c 2 t) (iblk m c 3 t) (k0_pay1 (F := F)) := by
  obtain ⟨n, hn⟩ := t
  cases n with
  | zero => rfl
  | succ n => exact (if_pos h).trans rfl

theorem outs5_acc (c : Dev nD) (t : Fin cfg0.N) (h : ¬t.val % 32 = 0) :
    outs5 m c t.val t.isLt = step5 (grid0.coords t) (iblk m c 0 t) (iblk m c 1 t) (iblk m c 2 t) (iblk m c 3 t)
      (outs5 m c (t.val - 1) (Nat.lt_of_le_of_lt (Nat.sub_le _ _) t.isLt)) := by
  obtain ⟨n, hn⟩ := t
  cases n with
  | zero => exact absurd (Nat.zero_mod _) h
  | succ n => exact (if_neg h).trans rfl

/-- The proof data of the one pipeline on core c: the arrays as the region finds them; after the body at point t each
    input's buffer still at its block and the two results' buffers at outs4 / outs5. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outs4 m c t.val t.isLt
    | ⟨5, _⟩ => outs5 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outs4 m c t.val t.isLt := by dsimp only [dats]
theorem after0_5 (c : Dev nD) (t : Fin cfg0.N) : (dats m 0 c).after 5 t = outs5 m c t.val t.isLt := by dsimp only [dats]

end Cert.KernelIdeal.Hand

end
-- ==== Proof.KI.Cases.lean ====
/-
  The two branch conditions of the body as functions of the grid point, in closed form over the grid, and the
  staging memrefs the pipeline calls the body with at a point.
  Condition 0 (restart result 0's running minimum) holds when the predicted-tile coordinate is 0: points = 0 mod 8.
  Condition 1 (restart result 1's running minimum) holds when both tile coordinates are 0: points = 0 mod 32.
-/
import proofs.«137396_j22797686407325_2_alg».proof.Proof.KI.Outs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the first conditional of the body, from the grid coordinates. -/
abbrev cond0_0 (i : grid0.Coords) : Prop :=
  (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the second conditional of the body, from the grid coordinates. -/
abbrev cond0_1 (i : grid0.Coords) : Prop :=
  (Scalar.cmpi .ne (Scalar.extui (Scalar.andi (Scalar.cmpi .eq (BitVec.ofNat 32 (i 1).val) 0#32)
    (Scalar.cmpi .eq (BitVec.ofNat 32 (i 2).val) 0#32))) 0#32) = 1#1
theorem hcond0_1 : ∀ t : Fin cfg0.N, cond0_1 (grid0.coords t) ↔ t.val % 32 = 0 :=
  (by decide +kernel : ∀ t : Fin grid0.N, cond0_1 (grid0.coords t) ↔ t.val % 32 = 0)

/-- Each window's current staging memref at point t, spelled as the pipeline passes it, and its wholeness. -/
abbrev ms0_0 (t : Fin cfg0.N) : Memref sig .tc .vmem S16x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x2048 .f32 := win0_5.stage (cfg0.slots t 5)
abbrev hs0_5 (t : Fin cfg0.N) : (ms0_5 t).IsWhole := hstage0_5 ((cfg0.slots t 5).cast nbuf0_5)

end Cert.KernelIdeal.Hand

end
-- ==== Proof.KI.RunA.lean ====
/-
  The body at a point where both running minima are restarted (predicted tile 0 of target tile 0): whatever the two result buffers held, result 0's block ends at the column minima of the tile against +inf and result 1's block at +inf with the current tile's columns lowered to the row minima.
-/
import proofs.«137396_j22797686407325_2_alg».proof.Proof.KI.Cases
import proofs.«137396_j22797686407325_2_alg».proof.Proof.LibMem

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runA (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x2048 .f32) (harg8 : arg8.IsWhole) (hc0 : cond0_0 i) (hc1 : cond0_1 i)
    (x0 : Vec F S16x256 .f32) (x1 : Vec F S16x256 .f32) (x2 : Vec F S16x512 .f32) (x3 : Vec F S16x512 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (step4 x0 x1 x2 x3 (k0_pay5 (F := F))) ∗ owns (c : Thread nD τ) arg8 fullShare (step5 i x0 x1 x2 x3 (k0_pay1 (F := F)))) -∗ K ⟨⟩))
          ⊢ wp frame (wpE (defs₀ (F := F)) Variants.none c none) E (cc0_chamfer_kernel i arg3 harg3 arg4 harg4 arg5 harg5 arg6 harg6 arg7 harg7 arg8 harg8) K := by
  intro E K
  simp only [cc0_chamfer_kernel_eq_skeleton]; unfold cc0_chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    -- result 0: the last store covers the block; the load after the restarting store reads back that store's +inf block
    refine (Chamfer.Mem.read_writes_whole _ _ Chamfer.Mem.hz _ _ _).trans ?_
    sl_unfold_run_names
    rw [Chamfer.Mem.readAt_unread_whole harg3 Chamfer.Mem.hz, Chamfer.Mem.readAt_unread_whole harg4 Chamfer.Mem.hz,
      Chamfer.Mem.readAt_unread_whole harg5 Chamfer.Mem.hz, Chamfer.Mem.readAt_unread_whole harg6 Chamfer.Mem.hz,
      Chamfer.Mem.readCov_whole arg7.view]
    rfl
  iexists _; isplitr; swap; · iexact H5
  ipureintro
  -- result 1: the restarting store fills the block with +inf; the slice loaded after it reads +inf there, and the
  -- slice store replaces the tile's columns of the +inf block
  refine (Chamfer.Mem.read_writes_cons _ _ _ _ _).trans ?_
  sl_unfold_run_names
  rw [Chamfer.Mem.readAt_unread_whole harg3 Chamfer.Mem.hz, Chamfer.Mem.readAt_unread_whole harg4 Chamfer.Mem.hz,
    Chamfer.Mem.readAt_unread_whole harg5 Chamfer.Mem.hz, Chamfer.Mem.readAt_unread_whole harg6 Chamfer.Mem.hz,
    Chamfer.Mem.read_writes_whole arg8.view _ Chamfer.Mem.hz, Chamfer.Mem.readAt_writes_whole_ld arg8.view _ Chamfer.Mem.hz]
  rfl

end Cert.KernelIdeal.Hand

end
-- ==== Proof.KI.RunB.lean ====
/-
  The body at a point where neither running minimum is restarted (a later predicted tile): both result blocks are carried.
-/
import proofs.«137396_j22797686407325_2_alg».proof.Proof.KI.Cases
import proofs.«137396_j22797686407325_2_alg».proof.Proof.LibMem

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runB (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x2048 .f32) (harg8 : arg8.IsWhole) (hc0 : ¬cond0_0 i) (hc1 : ¬cond0_1 i)
    (x0 : Vec F S16x256 .f32) (x1 : Vec F S16x256 .f32) (x2 : Vec F S16x512 .f32) (x3 : Vec F S16x512 .f32) (xo4 : Vec F S16x512 .f32) (xo5 : Vec F S16x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (step4 x0 x1 x2 x3 xo4) ∗ owns (c : Thread nD τ) arg8 fullShare (step5 i x0 x1 x2 x3 xo5)) -∗ K ⟨⟩))
          ⊢ wp frame (wpE (defs₀ (F := F)) Variants.none c none) E (cc0_chamfer_kernel i arg3 harg3 arg4 harg4 arg5 harg5 arg6 harg6 arg7 harg7 arg8 harg8) K := by
  intro E K
  simp only [cc0_chamfer_kernel_eq_skeleton]; unfold cc0_chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    -- result 0: the one store covers the block; its payload's five loads read the blocks' contents
    refine (Chamfer.Mem.read_writes_whole _ _ Chamfer.Mem.hz _ _ _).trans ?_
    rw [Chamfer.Mem.readAt_unread_whole harg3 Chamfer.Mem.hz, Chamfer.Mem.readAt_unread_whole harg4 Chamfer.Mem.hz,
      Chamfer.Mem.readAt_unread_whole harg5 Chamfer.Mem.hz, Chamfer.Mem.readAt_unread_whole harg6 Chamfer.Mem.hz,
      Chamfer.Mem.readAt_unread_whole harg7 Chamfer.Mem.hz]
    rfl
  iexists _; isplitr; swap; · iexact H5
  ipureintro
  -- result 1: the one store replaces the tile's columns of the previous contents; the loaded slice is theirs
  refine (Chamfer.Mem.read_writes_unread harg8 xo5 _ _).trans ?_
  sl_unfold_run_names
  rw [Chamfer.Mem.readAt_unread_whole harg3 Chamfer.Mem.hz, Chamfer.Mem.readAt_unread_whole harg4 Chamfer.Mem.hz,
    Chamfer.Mem.readAt_unread_whole harg5 Chamfer.Mem.hz, Chamfer.Mem.readAt_unread_whole harg6 Chamfer.Mem.hz,
    Chamfer.Mem.readAt_unread harg8]
  rfl

end Cert.KernelIdeal.Hand

end
-- ==== Proof.KI.RunC.lean ====
/-
  The body at a point where only result 0's running minimum is restarted (predicted tile 0 of a later target tile): result 1's block is carried.
-/
import proofs.«137396_j22797686407325_2_alg».proof.Proof.KI.Cases
import proofs.«137396_j22797686407325_2_alg».proof.Proof.LibMem

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runC (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x2048 .f32) (harg8 : arg8.IsWhole) (hc0 : cond0_0 i) (hc1 : ¬cond0_1 i)
    (x0 : Vec F S16x256 .f32) (x1 : Vec F S16x256 .f32) (x2 : Vec F S16x512 .f32) (x3 : Vec F S16x512 .f32) (xo5 : Vec F S16x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (step4 x0 x1 x2 x3 (k0_pay5 (F := F))) ∗ owns (c : Thread nD τ) arg8 fullShare (step5 i x0 x1 x2 x3 xo5)) -∗ K ⟨⟩))
          ⊢ wp frame (wpE (defs₀ (F := F)) Variants.none c none) E (cc0_chamfer_kernel i arg3 harg3 arg4 harg4 arg5 harg5 arg6 harg6 arg7 harg7 arg8 harg8) K := by
  intro E K
  simp only [cc0_chamfer_kernel_eq_skeleton]; unfold cc0_chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg3.eq_unread hf0; obtain rfl := harg4.eq_unread hf1; obtain rfl := harg5.eq_unread hf2; obtain rfl := harg6.eq_unread hf3
  obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    -- result 0: the last store covers the block; the load after the restarting store reads back that store's +inf block
    refine (Chamfer.Mem.read_writes_whole _ _ Chamfer.Mem.hz _ _ _).trans ?_
    sl_unfold_run_names
    rw [Chamfer.Mem.readAt_unread_whole harg3 Chamfer.Mem.hz, Chamfer.Mem.readAt_unread_whole harg4 Chamfer.Mem.hz,
      Chamfer.Mem.readAt_unread_whole harg5 Chamfer.Mem.hz, Chamfer.Mem.readAt_unread_whole harg6 Chamfer.Mem.hz,
      Chamfer.Mem.readCov_whole arg7.view]
    rfl
  iexists _; isplitr; swap; · iexact H5
  ipureintro
  -- result 1: the one store replaces the tile's columns of the previous contents; the loaded slice is theirs
  refine (Chamfer.Mem.read_writes_unread harg8 xo5 _ _).trans ?_
  sl_unfold_run_names
  rw [Chamfer.Mem.readAt_unread_whole harg3 Chamfer.Mem.hz, Chamfer.Mem.readAt_unread_whole harg4 Chamfer.Mem.hz,
    Chamfer.Mem.readAt_unread_whole harg5 Chamfer.Mem.hz, Chamfer.Mem.readAt_unread_whole harg6 Chamfer.Mem.hz,
    Chamfer.Mem.readAt_unread harg8]
  rfl

end Cert.KernelIdeal.Hand

end
-- ==== Proof.KI.Body.lean ====
/-
  The body obligation of the pipeline and the run of the whole program.

  At every grid point the four input buffers hold their blocks. Result 0's buffer holds what the point before left
  unless the predicted-tile coordinate is 0 (it is written back after predicted tile 7, so the buffer is then fresh and
  the body restarts it); result 1's buffer holds what the point before left unless both tile coordinates are 0 (it is
  written back after the last point of a batch block). In each of the three control cases the body's triple leaves the
  two result buffers at step4 / step5 of the contents found, which is what outs4 / outs5 say.
-/
import proofs.«137396_j22797686407325_2_alg».proof.Proof.KI.RunA
import proofs.«137396_j22797686407325_2_alg».proof.Proof.KI.RunB
import proofs.«137396_j22797686407325_2_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Away from predicted tile 0, result 0's buffer holds what the body left at the point before: it is written back only
    after predicted tile 7. -/
theorem before0_4_acc (c : Dev nD) (t : Fin cfg0.N) (h0 : ¬t.val % 8 = 0) (d) :
    (dats m 0 c).before 4 t d = outs4 m c (t.val - 1) (Nat.lt_of_le_of_lt (Nat.sub_le _ _) t.isLt) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-- Away from the first point of a batch block, result 1's buffer holds what the body left at the point before: it is
    written back only after the last point of a batch block. -/
theorem before0_5_acc (c : Dev nD) (t : Fin cfg0.N) (h1 : ¬t.val % 32 = 0) (d) :
    (dats m 0 c).before 5 t d = outs5 m c (t.val - 1) (Nat.lt_of_le_of_lt (Nat.sub_le _ _) t.isLt) := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    (fun _ => rfl) (fun _ _ => rfl)]
  dsimp only [dats]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1200000 in
/-- The body at any point: the closed forms of the two conditions say which case the point is in; a result buffer the
    case does not restart holds what the point before left; so that case's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 128 := lt_of_lt_of_eq t.isLt (show cfg0.N = 128 from N_0)
  by_cases h0 : t.val % 8 = 0
  · by_cases h1 : t.val % 32 = 0
    · rw [outs4_reset m c t h0, outs5_reset m c t h1]
      iintro ⟨HΦ, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ ((hcond0_0 t).mpr h0) ((hcond0_1 t).mpr h1) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [outs4_reset m c t h0, outs5_acc m c t h1]
      simp only [before0_5_acc m c t h1]
      iintro ⟨HΦ, Ho, ⟨%d0, H0⟩, ⟨%d1, H1⟩, ⟨%d2, H2⟩, ⟨%d3, H3⟩, ⟨%d4, H4⟩, ⟨%d5, H5⟩⟩
      iapply ((runC c (grid0.coords t) _ _ _ _ _ _ _ _ _ _ _ _ ((hcond0_0 t).mpr h0) (fun h => h1 ((hcond0_1 t).mp h)) (iblk m c 0 t) (iblk m c 1 t) (iblk m c 2 t) (iblk m c 3 t) _) Set.univ _)
      isplitl [H0]; · iexact H0
      isplitl [H1]; · iexact H1
      isplitl [H2]; · iexact H2
      isplitl [H3]; · iexact H3
      isplitl [H4]; · iexists _; iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
  · have h1 : ¬t.val % 32 = 0 := by omega
    rw [outs4_acc m c t h0, outs5_acc m c t h1]
    simp only [before0_4_acc m c t h0, before0_5_acc m c t h1]
    iintro ⟨HΦ, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _ _) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the program terminates, every array of the
    pipeline ends at what the library computes from the proof data, and every other unscoped buffer at what the host
    lines after the region make of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The mathematics of the certificate, with no program in sight.

  Each of the two inputs is a 64 x 4096 array of extended reals; the first 2048 columns of a row are the "frequencies"
  of its 2048 tokens and the last 2048 columns their "amplitudes". For a batch row b, predicted token i and target
  token j the clamped squared distance is
      d2 b i j = max ((fp b i - ft b j)^2 + (ap b i - at b j)^2) 0.
  One side takes, for every target token, the minimum of d2 over the predicted tokens (and for every predicted token
  the minimum over the target tokens), and only then the square root of the clamped minimum; the other side expands
  the square as p2 + t2 - 2 (fp ft + ap at), takes the square root of the clamp entry by entry and then the minima.
  Both sides finish with the same averaging: row means of the two 64 x 2048 arrays, their sum, and its mean over rows.
-/
import Idealize.ShloMosaic.PureOps
import Idealize.ShloMosaic.PureOps.Ideal
import Idealize.ShloMosaic.Lib.ValueIdx

noncomputable section

namespace Chamfer

open Idealize.ShloMosaic Idealize.ShloMosaic.ValueIdx

abbrev S64x4096 : Shape := ⟨2, ![64, 4096]⟩
abbrev S64x2048 : Shape := ⟨2, ![64, 2048]⟩
abbrev S64 : Shape := ⟨1, ![64]⟩
abbrev S_ : Shape := ⟨0, ![]⟩

/-- The first 2048 columns of every row. -/
def lo (x : FVec Ideal S64x4096 .f32) : FVec Ideal S64x2048 .f32 :=
  fun z => x (ix2 (n0 := 64) (n1 := 4096) ⟨(z 0).val, (z 0).isLt⟩ ⟨(z 1).val, Nat.lt_of_lt_of_le (z 1).isLt (by decide)⟩)

/-- The last 2048 columns of every row. -/
def hi (x : FVec Ideal S64x4096 .f32) : FVec Ideal S64x2048 .f32 :=
  fun z => x (ix2 (n0 := 64) (n1 := 4096) ⟨(z 0).val, (z 0).isLt⟩ ⟨2048 + (z 1).val, by have := (z 1).isLt; change (z 1).val < 2048 at this; omega⟩)

variable (fp ap ft at_ : FVec Ideal S64x2048 .f32)

/-- The clamped squared distance between predicted token i and target token j of batch row b. -/
def d2 (b : Fin 64) (i j : Fin 2048) : EReal :=
  max ((fp (ix2 b i) - ft (ix2 b j)) * (fp (ix2 b i) - ft (ix2 b j))
      + (ap (ix2 b i) - at_ (ix2 b j)) * (ap (ix2 b i) - at_ (ix2 b j))) 0

/-- For each target token, the least clamped squared distance to a predicted token of the same row. -/
def kmin1 (b : Fin 64) (j : Fin 2048) : EReal := (Finset.univ : Finset (Fin 2048)).inf fun i => d2 fp ap ft at_ b i j
/-- For each predicted token, the least clamped squared distance to a target token of the same row. -/
def kmin2 (b : Fin 64) (i : Fin 2048) : EReal := (Finset.univ : Finset (Fin 2048)).inf fun j => d2 fp ap ft at_ b i j

/-- Square root of the clamped minimum, as an array: what the first side averages. -/
def kres1 : FVec Ideal S64x2048 .f32 := fun z => Ideal.sqrt (max (kmin1 fp ap ft at_ ⟨(z 0).val, (z 0).isLt⟩ ⟨(z 1).val, (z 1).isLt⟩) 0)
def kres2 : FVec Ideal S64x2048 .f32 := fun z => Ideal.sqrt (max (kmin2 fp ap ft at_ ⟨(z 0).val, (z 0).isLt⟩ ⟨(z 1).val, (z 1).isLt⟩) 0)

/-- The distance by the expanded square: sqrt (max (p2 + t2 - 2 (fp ft + ap at)) 0). -/
def r2 (b : Fin 64) (i j : Fin 2048) : EReal :=
  Ideal.sqrt (max (((fp (ix2 b i) * fp (ix2 b i) + ap (ix2 b i) * ap (ix2 b i))
        + (ft (ix2 b j) * ft (ix2 b j) + at_ (ix2 b j) * at_ (ix2 b j)))
      - 2 * (fp (ix2 b i) * ft (ix2 b j) + ap (ix2 b i) * at_ (ix2 b j))) 0)

/-- What the second side averages. -/
def rres1 : FVec Ideal S64x2048 .f32 := fun z =>
  (Finset.univ : Finset (Fin 2048)).inf fun i => r2 fp ap ft at_ ⟨(z 0).val, (z 0).isLt⟩ i ⟨(z 1).val, (z 1).isLt⟩
def rres2 : FVec Ideal S64x2048 .f32 := fun z =>
  (Finset.univ : Finset (Fin 2048)).inf fun j => r2 fp ap ft at_ ⟨(z 0).val, (z 0).isLt⟩ ⟨(z 1).val, (z 1).isLt⟩ j

/-- The averaging both sides end with, as the host operations spell it: row sums from zero divided by 2048, added,
    summed over the rows from zero and divided by 64. -/
def tail (hr1 : S64x2048.ReducesTo [1] S64) (h0 : 0 < S_.numel) (hb : S_.BroadcastsInDim S64 (![] : Fin 0 → Fin S64.rank))
    (hr0 : S64.ReducesTo [0] S_) (A B : FVec Ideal S64x2048 .f32) : FVec Ideal S_ .f32 :=
  Host.divf (F := Ideal)
    (Host.reduceAdd (F := Ideal)
      (addf (F := Ideal)
        (Host.divf (F := Ideal) (Host.reduceAdd (F := Ideal) A (constant (F := Ideal) S_ .f32 0x00000000#32) hr1 h0)
          (broadcastInDim S64 ![] hb (constant (F := Ideal) S_ .f32 0x45000000#32)))
        (Host.divf (F := Ideal) (Host.reduceAdd (F := Ideal) B (constant (F := Ideal) S_ .f32 0x00000000#32) hr1 h0)
          (broadcastInDim S64 ![] hb (constant (F := Ideal) S_ .f32 0x45000000#32))))
      (constant (F := Ideal) S_ .f32 0x00000000#32) hr0 h0)
    (constant (F := Ideal) S_ .f32 0x42800000#32)

end Chamfer

end
-- ==== Proof.KI.Result.lean ====
/-
  The program's result from the two arrays the region leaves.

  After the region the host takes, of each of the two 64 x 2048 arrays of running minima, the entrywise square root of
  the maximum with 0, and then the averaging Chamfer.tail. Where the arrays hold the minima kmin1 / kmin2 of the
  clamped squared distances, the arrays averaged are kres1 / kres2.
-/
import proofs.«137396_j22797686407325_2_alg».proof.Proof.KI.Outs
import proofs.«137396_j22797686407325_2_alg».proof.Proof.Spec
import Idealize.ShloMosaic.Lib.StableHlo.Run
import Idealize.ShloMosaic.Lib.Pipeline.FrameSuffix
import Idealize.ShloMosaic.PureOps.Ideal.Laws

set_option maxRecDepth 16384

noncomputable section

namespace Cert.KernelIdeal.Hand

open Idealize.ShloMosaic Idealize.ShloMosaic.TcCoe Idealize.ShloMosaic.StableHlo Idealize.ShloMosaic.ValueIdx
open Idealize.SL Idealize.SL.RA Idealize.SL.BI Idealize.SL.Sem
open Idealize.ShloMosaic.Pipeline (Dat Cfg Window)
open Cert.KernelIdeal Cert.KernelIdeal.Gen

variable (m : (ℓ : Loc nD τ sig) → Buf (Elt Ideal) ℓ)

/-- The entrywise square root of the maximum with zero, as the host lines after the region spell it. -/
def clampRoot (A : FVec Ideal S64x2048 .f32) : FVec Ideal S64x2048 .f32 :=
  Host.sqrt (F := Ideal) (maximumf (F := Ideal) A
    (broadcastInDim S64x2048 ![] bcast_S_S64x2048 (constant (F := Ideal) S_ .f32 0x00000000#32)))

theorem clampRoot_apply (A : FVec Ideal S64x2048 .f32) (z : S64x2048.Idx) :
    clampRoot A z = Ideal.sqrt (max (A z) 0) := by
  simp only [clampRoot, Host.sqrt, maximumf, broadcastInDim, constant, Ideal.hostUnary_sqrt_def, Ideal.maximumf_def,
    Ideal.ofBits_def, Ideal.ofBits_zero_f32]

/-- The result after the host lines that follow the region: the averaging of the clamped roots of the two arrays the
    region leaves. -/
theorem result_eq (c : Dev nD) :
    Pipeline.afterTail₀ cfgs (dats m) 0 (V0 m) [hostOps1] c main_v19
      = Chamfer.tail reducesTo_S64x2048_S64_d1 h_S_ bcast_S_S64 reducesTo_S64_S_d0
          (clampRoot ((dats m 0 c).arrAt 4 cfg0.N)) (clampRoot ((dats m 0 c).arrAt 5 cfg0.N)) := by
  have e4 : Pipeline.withArrays (cfgs 0).spec c (V0 m c) (fun w => (dats m 0 c).arrAt w (cfgs 0).N) (Proc.devRef .tc main_v4_0)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v4_1)
      = (dats m 0 c).arrAt 5 cfg0.N := Pipeline.withArrays_arr spec0 launch0.win.arr_inj c _ _ 5
  unfold Pipeline.afterTail₀
  show StableHlo.after hostOps1 _ (Proc.devRef .tc main_v19) = _
  after_results
  rw [e4, e5]
  rfl

/-- Where an array's entries are the minima over the predicted tokens, its clamped root is kres1. -/
theorem clampRoot_kres1 (A fp ap ft at_ : FVec Ideal S64x2048 .f32)
    (h : ∀ (b : Fin 64) (j : Fin 2048), A (ix2 b j) = Chamfer.kmin1 fp ap ft at_ b j) :
    clampRoot A = Chamfer.kres1 fp ap ft at_ := by
  funext z
  obtain ⟨b, j, rfl⟩ : ∃ (b : Fin 64) (j : Fin 2048), z = ix2 b j := ⟨z 0, z 1, eq_ix2 z⟩
  rw [clampRoot_apply, h]
  rfl

/-- Where an array's entries are the minima over the target tokens, its clamped root is kres2. -/
theorem clampRoot_kres2 (A fp ap ft at_ : FVec Ideal S64x2048 .f32)
    (h : ∀ (b : Fin 64) (i : Fin 2048), A (ix2 b i) = Chamfer.kmin2 fp ap ft at_ b i) :
    clampRoot A = Chamfer.kres2 fp ap ft at_ := by
  funext z
  obtain ⟨b, i, rfl⟩ : ∃ (b : Fin 64) (i : Fin 2048), z = ix2 b i := ⟨z 0, z 1, eq_ix2 z⟩
  rw [clampRoot_apply, h]
  rfl

end Cert.KernelIdeal.Hand

end
-- ==== Proof.KI.Run.lean ====
/-
  The idealized kernel program's run with its result named: the averaging of the clamped roots of the two arrays of
  running minima the region leaves, and the two arguments unchanged.
-/
import proofs.«137396_j22797686407325_2_alg».proof.Proof.KI.Body
import proofs.«137396_j22797686407325_2_alg».proof.Proof.KI.Result

set_option maxRecDepth 16384

noncomputable section

namespace Cert.KernelIdeal.Hand

open Idealize.ShloMosaic Idealize.ShloMosaic.TcCoe
open Idealize.SL Idealize.SL.RA Idealize.SL.BI Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem kernel_run : θ_run defs (onTc (τ := τ) (main (F := Ideal))) ⟨m, fun _ => 0, ρ⟩ (fun r => ∀ c : Dev nD,
      r.2.mem ((c.tc : Thread nD τ).loc main_v19)
        = Chamfer.tail reducesTo_S64x2048_S64_d1 h_S_ bcast_S_S64 reducesTo_S64_S_d0
            (clampRoot ((dats m 0 c).arrAt 4 cfg0.N)) (clampRoot ((dats m 0 c).arrAt 5 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v19 (Pipeline.mem_restRefs_of main_v19 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.LibInf.lean ====
/-
  Two general facts about finite infima of extended reals: an infimum over Fin (n * k) is the infimum over the n
  blocks of the infima over the k positions of a block; and a fold of min from the top element is the infimum.
-/
import Mathlib.Data.EReal.Basic
import Mathlib.Data.Fintype.Lattice
import Mathlib.Logic.Equiv.Fin.Basic
import Mathlib.Order.CompleteLattice.Basic

namespace Chamfer

/-- Position p of block a, for blocks of k positions, is an index below n * k. -/
theorem block_lt {n k : ℕ} (a : Fin n) (p : Fin k) : k * a.val + p.val < n * k := by
  have ha := a.isLt
  have hp := p.isLt
  calc k * a.val + p.val < k * a.val + k := Nat.add_lt_add_left hp _
    _ = k * (a.val + 1) := by rw [Nat.mul_succ]
    _ ≤ k * n := Nat.mul_le_mul_left _ ha
    _ = n * k := Nat.mul_comm _ _

/-- An infimum over Fin (n * k), block by block. -/
theorem inf_blocks (n k : ℕ) (f : Fin (n * k) → EReal) :
    Finset.univ.inf f
      = Finset.univ.inf fun a : Fin n => Finset.univ.inf fun p : Fin k => f ⟨k * a.val + p.val, block_lt a p⟩ := by
  simp only [Finset.inf_univ_eq_iInf]
  rw [← (finProdFinEquiv (m := n) (n := k)).iInf_comp (g := f), iInf_prod]
  refine iInf_congr fun a => iInf_congr fun p => ?_
  refine congrArg f (Fin.ext ?_)
  simp [finProdFinEquiv, Nat.add_comm]

/-- Folding min from the top element over a finite set is its infimum. -/
theorem fold_min_eq_inf {ι : Type*} (s : Finset ι) (g : ι → EReal) : s.fold min ⊤ g = s.inf g := rfl

end Chamfer
-- ==== Proof.KI.ValuePay.lean ====
/-
  The body's arithmetic read at an index, over the extended reals.

  For one row r of a 16-row batch block, predicted position p of a 256-wide tile and target position q of a 512-wide
  tile, the body forms the clamped squared distance
      e r p q = max ((fp r p - ft r q)^2 + (ap r p - at r q)^2) 0
  (the two keepdims reshapes [16,256] -> [16,256,1] and [16,512] -> [16,1,512] followed by broadcasts to [16,256,512]
  only place p and q on their own axes), and from it two minima: over p (axis 1), folded into result 0's block with
  min, and over q (axis 2), folded into the current columns of result 1's block with min. A min-reduction from the
  word of +infinity is the infimum over the reduced axis; the blocks the running minima restart from are constant
  +infinity.
-/
import proofs.«137396_j22797686407325_2_alg».proof.Proof.Gen.KernelIdeal.Skeleton
import proofs.«137396_j22797686407325_2_alg».proof.Proof.LibInf
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Gen

/-! ## Generalities: the word of +infinity, a min-reduction over one axis, the keepdims layouts -/

/-- The f32 word 0x7F800000 denotes +infinity. -/
theorem top_word : Ideal.ofBits .f32 0x7F800000#32 = (⊤ : EReal) := by simp [Ideal.ofBits, Ideal.ieee]

/-- A min-reduction over ONE axis, over the extended reals: the fold of min from the accumulator's value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- An [a, b] array cast to [a, b, 1] reads, at (i, j, u), the operand at (i, j). -/
theorem shapeCast_ab_ab1_apply {a b : ℕ} {α : Type} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b] array cast to [a, 1, b] reads, at (i, u, j), the operand at (i, j). -/
theorem shapeCast_ab_a1b_apply {a b : ℕ} {α : Type} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, b, 1] array broadcast to [a, b, c] reads, at (i, j, k), the operand at (i, j, 0). -/
theorem broadcastTo_ab1_abc_apply {a b c : ℕ} {α : Type} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, k), the operand at (i, 0, k). -/
theorem broadcastTo_a1c_abc_apply {a b c : ℕ} {α : Type} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## The payloads at an index -/

/-- The tile entry: the clamped squared distance between predicted position p and target position q of row r. -/
theorem pay3_apply (x0 x1 : Vec Ideal S16x256 .f32) (x2 x3 : Vec Ideal S16x512 .f32) (r : Fin 16) (p : Fin 256) (q : Fin 512) :
    k0_pay3 x0 x1 x2 x3 (ix3 r p q)
      = max ((x0 (ix2 r p) - x2 (ix2 r q)) * (x0 (ix2 r p) - x2 (ix2 r q))
          + (x1 (ix2 r p) - x3 (ix2 r q)) * (x1 (ix2 r p) - x3 (ix2 r q))) 0 := by
  unfold k0_pay3
  simp only [shapeCast_self, maximumf_apply, addf_apply, mulf_apply, subf_apply, broadcast_apply,
    broadcastTo_ab1_abc_apply, broadcastTo_a1c_abc_apply, shapeCast_ab_ab1_apply, shapeCast_ab_a1b_apply,
    Scalar.ofBits, Ideal.ofBits_def, Ideal.ofBits_zero_f32]

/-- The source index over (r, q) with p inserted on axis 1 is (r, p, q). -/
theorem lift1_eq (r : Fin 16) (p : Fin 256) (q : Fin 512) :
    reduces_S16x256x512_S16x512.lift (ix2 r q) p = ix3 r p q := by
  funext c; apply Fin.ext
  match c with
  | ⟨0, _⟩ => rfl
  | ⟨1, _⟩ => rfl
  | ⟨2, _⟩ => rfl

/-- The source index over (r, p) with q inserted on axis 2 is (r, p, q). -/
theorem lift2_eq (r : Fin 16) (p : Fin 256) (q : Fin 512) :
    reduces_S16x256x512_S16x256.lift (ix2 r p) q = ix3 r p q := by
  funext c; apply Fin.ext
  match c with
  | ⟨0, _⟩ => rfl
  | ⟨1, _⟩ => rfl
  | ⟨2, _⟩ => rfl

/-- Result 0's block after a point: the previous entry lowered to the minimum over the tile's 256 predicted positions. -/
theorem pay6_apply (x0 x1 : Vec Ideal S16x256 .f32) (x2 x3 : Vec Ideal S16x512 .f32) (xo : Vec Ideal S16x512 .f32)
    (r : Fin 16) (q : Fin 512) :
    k0_pay6 x0 x1 x2 x3 xo (ix2 r q)
      = min (xo (ix2 r q)) ((Finset.univ : Finset (Fin 256)).inf fun p => k0_pay3 x0 x1 x2 x3 (ix3 r p q)) := by
  unfold k0_pay6
  simp only [shapeCast_self]
  refine (minimumf_apply _ _ _).trans (congrArg (min (xo (ix2 r q))) ?_)
  refine (multiReduction_minimumf_single (k0_pay3 x0 x1 x2 x3) 0x7F800000#32 reduces_S16x256x512_S16x512 (.inl rfl) rfl
    (ix2 r q)).trans ?_
  show Finset.fold min (Ideal.ofBits .f32 0x7F800000#32)
    (fun p : Fin 256 => k0_pay3 x0 x1 x2 x3 (reduces_S16x256x512_S16x512.lift (ix2 r q) p)) Finset.univ = _
  rw [top_word, Chamfer.fold_min_eq_inf]
  exact Finset.inf_congr rfl fun p _ => congrArg _ (lift1_eq r p q)

/-- The row minima of the tile: for predicted position p, the minimum over the tile's 512 target positions. -/
theorem pay4_apply (x0 x1 : Vec Ideal S16x256 .f32) (x2 x3 : Vec Ideal S16x512 .f32) (r : Fin 16) (p : Fin 256) :
    k0_pay4 x0 x1 x2 x3 (ix2 r p)
      = (Finset.univ : Finset (Fin 512)).inf fun q => k0_pay3 x0 x1 x2 x3 (ix3 r p q) := by
  unfold k0_pay4
  refine (multiReduction_minimumf_single (k0_pay3 x0 x1 x2 x3) 0x7F800000#32 reduces_S16x256x512_S16x256 (.inl rfl) rfl
    (ix2 r p)).trans ?_
  show Finset.fold min (Ideal.ofBits .f32 0x7F800000#32)
    (fun q : Fin 512 => k0_pay3 x0 x1 x2 x3 (reduces_S16x256x512_S16x256.lift (ix2 r p) q)) Finset.univ = _
  rw [top_word, Chamfer.fold_min_eq_inf]
  exact Finset.inf_congr rfl fun q _ => congrArg _ (lift2_eq r p q)

/-- The update of result 1's current columns: the previous entry lowered to the row minimum. -/
theorem pay2_apply (v24 : FVec Ideal S16x256 .f32) (v40 : Vec Ideal S16x256 .f32) (y : S16x256.Idx) :
    k0_pay2 v24 v40 y = min (v40 y) (v24 y) := by
  unfold k0_pay2
  simp only [shapeCast_self]
  exact minimumf_apply _ _ _

/-- The block result 0 restarts from is +infinity everywhere. -/
theorem pay5_apply (y : S16x512.Idx) : k0_pay5 (F := Ideal) y = (⊤ : EReal) := by
  unfold k0_pay5
  exact top_word

/-- The block result 1 restarts from is +infinity everywhere. -/
theorem pay1_apply (y : S16x2048.Idx) : k0_pay1 (F := Ideal) y = (⊤ : EReal) := by
  unfold k0_pay1
  exact top_word

end Cert.KernelIdeal.Hand

end
-- ==== Proof.KI.ValueBlk.lean ====
/-
  The input blocks read at an index, and the tile entry as a clamped squared distance of the whole arrays.

  Grid point t has batch block t / 32, target tile (t / 8) mod 4 and predicted tile t mod 8. At it the frequency and
  amplitude blocks of the predicted side hold rows 16 (t / 32) + r, columns 256 (t mod 8) + p of their arrays, those
  of the target side rows 16 (t / 32) + r, columns 512 ((t / 8) mod 4) + q. So the tile entry (r, p, q) at t is the
  clamped squared distance d2 of batch row 16 (t / 32) + r between predicted token 256 (t mod 8) + p and target
  token 512 ((t / 8) mod 4) + q.
-/
import proofs.«137396_j22797686407325_2_alg».proof.Proof.KI.Outs
import proofs.«137396_j22797686407325_2_alg».proof.Proof.KI.ValuePay
import proofs.«137396_j22797686407325_2_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The batch row of block row r at point n. -/
def rowOf (n : ℕ) (r : Fin 16) : Fin 64 := ⟨16 * (n / 32 % 4) + r.val, by have := r.isLt; omega⟩
/-- The predicted token of position p of the predicted tile at point n. -/
def predOf (n : ℕ) (p : Fin 256) : Fin 2048 := ⟨256 * (n % 8) + p.val, by have := p.isLt; omega⟩
/-- The target token of position q of the target tile at point n. -/
def targOf (n : ℕ) (q : Fin 512) : Fin 2048 := ⟨512 * (n / 8 % 4) + q.val, by have := q.isLt; omega⟩

/-- The printed index maps, decided once over the grid. -/
theorem idx_facts : ∀ t : Fin cfg0.N,
    win0_0.index t (0 : Fin 2) = t.val / 32 % 4 ∧ win0_0.index t (1 : Fin 2) = t.val % 8
    ∧ win0_1.index t (0 : Fin 2) = t.val / 32 % 4 ∧ win0_1.index t (1 : Fin 2) = t.val % 8
    ∧ win0_2.index t (0 : Fin 2) = t.val / 32 % 4 ∧ win0_2.index t (1 : Fin 2) = t.val / 8 % 4
    ∧ win0_3.index t (0 : Fin 2) = t.val / 32 % 4 ∧ win0_3.index t (1 : Fin 2) = t.val / 8 % 4
    ∧ win0_4.index t (0 : Fin 2) = t.val / 32 % 4 ∧ win0_4.index t (1 : Fin 2) = t.val / 8 % 4
    ∧ win0_5.index t (0 : Fin 2) = t.val / 32 % 4 ∧ win0_5.index t (1 : Fin 2) = 0
    ∧ (grid0.coords t (2 : Fin 3)).val = t.val % 8 :=
  (by decide +kernel : ∀ t : Fin grid0.N, _)

/-- The predicted frequencies' block at t. -/
theorem iblk0_apply (c : Dev nD) (t : Fin cfg0.N) (r : Fin 16) (p : Fin 256) :
    (iblk m c 0 t : Vec Ideal S16x256 .f32) (ix2 r p)
      = (V m c main_v0 : FVec Ideal S64x2048 .f32) (ix2 (rowOf t.val r) (predOf t.val p)) := by
  obtain ⟨e0, e1, -⟩ := idx_facts t
  unfold iblk
  rw [View.read_apply]
  show V m c main_v0 _ = V m c main_v0 _
  refine congrArg _ (funext fun a => Fin.ext ?_)
  match a with
  | ⟨0, _⟩ => show win0_0.index t (0 : Fin 2) * 16 + 1 * r.val = 16 * (t.val / 32 % 4) + r.val; rw [e0]; omega
  | ⟨1, _⟩ => show win0_0.index t (1 : Fin 2) * 256 + 1 * p.val = 256 * (t.val % 8) + p.val; rw [e1]; omega

/-- The predicted amplitudes' block at t. -/
theorem iblk1_apply (c : Dev nD) (t : Fin cfg0.N) (r : Fin 16) (p : Fin 256) :
    (iblk m c 1 t : Vec Ideal S16x256 .f32) (ix2 r p)
      = (V m c main_v1 : FVec Ideal S64x2048 .f32) (ix2 (rowOf t.val r) (predOf t.val p)) := by
  obtain ⟨-, -, e0, e1, -⟩ := idx_facts t
  unfold iblk
  rw [View.read_apply]
  show V m c main_v1 _ = V m c main_v1 _
  refine congrArg _ (funext fun a => Fin.ext ?_)
  match a with
  | ⟨0, _⟩ => show win0_1.index t (0 : Fin 2) * 16 + 1 * r.val = 16 * (t.val / 32 % 4) + r.val; rw [e0]; omega
  | ⟨1, _⟩ => show win0_1.index t (1 : Fin 2) * 256 + 1 * p.val = 256 * (t.val % 8) + p.val; rw [e1]; omega

/-- The target frequencies' block at t. -/
theorem iblk2_apply (c : Dev nD) (t : Fin cfg0.N) (r : Fin 16) (q : Fin 512) :
    (iblk m c 2 t : Vec Ideal S16x512 .f32) (ix2 r q)
      = (V m c main_v2 : FVec Ideal S64x2048 .f32) (ix2 (rowOf t.val r) (targOf t.val q)) := by
  obtain ⟨-, -, -, -, e0, e1, -⟩ := idx_facts t
  unfold iblk
  rw [View.read_apply]
  show V m c main_v2 _ = V m c main_v2 _
  refine congrArg _ (funext fun a => Fin.ext ?_)
  match a with
  | ⟨0, _⟩ => show win0_2.index t (0 : Fin 2) * 16 + 1 * r.val = 16 * (t.val / 32 % 4) + r.val; rw [e0]; omega
  | ⟨1, _⟩ => show win0_2.index t (1 : Fin 2) * 512 + 1 * q.val = 512 * (t.val / 8 % 4) + q.val; rw [e1]; omega

/-- The target amplitudes' block at t. -/
theorem iblk3_apply (c : Dev nD) (t : Fin cfg0.N) (r : Fin 16) (q : Fin 512) :
    (iblk m c 3 t : Vec Ideal S16x512 .f32) (ix2 r q)
      = (V m c main_v3 : FVec Ideal S64x2048 .f32) (ix2 (rowOf t.val r) (targOf t.val q)) := by
  obtain ⟨-, -, -, -, -, -, e0, e1, -⟩ := idx_facts t
  unfold iblk
  rw [View.read_apply]
  show V m c main_v3 _ = V m c main_v3 _
  refine congrArg _ (funext fun a => Fin.ext ?_)
  match a with
  | ⟨0, _⟩ => show win0_3.index t (0 : Fin 2) * 16 + 1 * r.val = 16 * (t.val / 32 % 4) + r.val; rw [e0]; omega
  | ⟨1, _⟩ => show win0_3.index t (1 : Fin 2) * 512 + 1 * q.val = 512 * (t.val / 8 % 4) + q.val; rw [e1]; omega

/-- The clamped squared distance of the four arrays as the region finds them. -/
def tileD (c : Dev nD) (b : Fin 64) (i j : Fin 2048) : EReal :=
  Chamfer.d2 (V m c main_v0) (V m c main_v1) (V m c main_v2) (V m c main_v3) b i j

theorem tileD_eq (c : Dev nD) :
    tileD m c = Chamfer.d2 (V m c main_v0) (V m c main_v1) (V m c main_v2) (V m c main_v3) := rfl

/-- The tile entry at point t is the clamped squared distance of the tokens the tile's positions stand for. -/
theorem entry_apply (c : Dev nD) (t : Fin cfg0.N) (r : Fin 16) (p : Fin 256) (q : Fin 512) :
    k0_pay3 (iblk m c 0 t) (iblk m c 1 t) (iblk m c 2 t) (iblk m c 3 t) (ix3 r p q)
      = tileD m c (rowOf t.val r) (predOf t.val p) (targOf t.val q) := by
  refine (pay3_apply (iblk m c 0 t) (iblk m c 1 t) (iblk m c 2 t) (iblk m c 3 t) r p q).trans ?_
  rw [iblk0_apply, iblk1_apply, iblk2_apply, iblk3_apply]
  rfl

/-- A token lies in the predicted tile of point n exactly when it is one of the tile's 256 positions. -/
theorem pred_mem (n : ℕ) (i : Fin 2048) :
    (∃ p : Fin 256, predOf n p = i) ↔ 256 * (n % 8) ≤ i.val ∧ i.val < 256 * (n % 8 + 1) := by
  constructor
  · rintro ⟨p, rfl⟩
    have := p.isLt
    show 256 * (n % 8) ≤ 256 * (n % 8) + p.val ∧ 256 * (n % 8) + p.val < 256 * (n % 8 + 1)
    omega
  · rintro ⟨h1, h2⟩
    exact ⟨⟨i.val - 256 * (n % 8), by omega⟩, Fin.ext (by show 256 * (n % 8) + (i.val - 256 * (n % 8)) = i.val; omega)⟩

/-- A token lies in the target tile of point n exactly when it is one of the tile's 512 positions. -/
theorem targ_mem (n : ℕ) (j : Fin 2048) :
    (∃ q : Fin 512, targOf n q = j) ↔ 512 * (n / 8 % 4) ≤ j.val ∧ j.val < 512 * (n / 8 % 4 + 1) := by
  constructor
  · rintro ⟨q, rfl⟩
    have := q.isLt
    show 512 * (n / 8 % 4) ≤ 512 * (n / 8 % 4) + q.val ∧ 512 * (n / 8 % 4) + q.val < 512 * (n / 8 % 4 + 1)
    omega
  · rintro ⟨h1, h2⟩
    exact ⟨⟨j.val - 512 * (n / 8 % 4), by omega⟩, Fin.ext (by show 512 * (n / 8 % 4) + (j.val - 512 * (n / 8 % 4)) = j.val; omega)⟩

/-- Result 1's update on the columns of the current predicted tile: the previous entry lowered to the row minimum. -/
theorem step5_in (t : Fin cfg0.N) (x0 x1 : Vec Ideal S16x256 .f32) (x2 x3 : Vec Ideal S16x512 .f32)
    (xo : Vec Ideal S16x2048 .f32) (r : Fin 16) (p : Fin 256) :
    step5 (grid0.coords t) x0 x1 x2 x3 xo (ix2 r (predOf t.val p))
      = min (xo (ix2 r (predOf t.val p))) ((Finset.univ : Finset (Fin 512)).inf fun q => k0_pay3 x0 x1 x2 x3 (ix3 r p q)) := by
  obtain ⟨-, -, -, -, -, -, -, -, -, -, -, -, e2⟩ := idx_facts t
  have e : (ix2 r (predOf t.val p) : S16x2048.Idx) = (R5 (grid0.coords t)).emb (ix2 r p) := by
    funext a; apply Fin.ext
    match a with
    | ⟨0, _⟩ => show r.val = k0_off1 (grid0.coords t) 0 + 1 * r.val; rw [k0_off1_eq]; show r.val = 0 + 1 * r.val; omega
    | ⟨1, _⟩ => show 256 * (t.val % 8) + p.val = k0_off1 (grid0.coords t) 1 + 1 * p.val; rw [k0_off1_eq]; show _ = 256 * (grid0.coords t 2).val + 1 * p.val; rw [e2]; omega
  unfold step5
  rw [e, Rect.overlay_emb]
  refine (pay2_apply _ _ _).trans ?_
  rw [pay4_apply]
  rfl

/-- Result 1's update leaves the columns of the other predicted tiles as they were. -/
theorem step5_out (t : Fin cfg0.N) (x0 x1 : Vec Ideal S16x256 .f32) (x2 x3 : Vec Ideal S16x512 .f32)
    (xo : Vec Ideal S16x2048 .f32) (r : Fin 16) (i : Fin 2048) (h : ¬ i.val / 256 = t.val % 8) :
    step5 (grid0.coords t) x0 x1 x2 x3 xo (ix2 r i) = xo (ix2 r i) := by
  obtain ⟨-, -, -, -, -, -, -, -, -, -, -, -, e2⟩ := idx_facts t
  unfold step5
  refine Rect.overlay_of_not_mem _ _ _ ?_
  rw [Rect.mem_set_unit]
  intro hmem
  have h1 := hmem ⟨1, by decide⟩
  rw [k0_off1_eq] at h1
  have h1' : 256 * (grid0.coords t 2).val ≤ i.val ∧ i.val < 256 * (grid0.coords t 2).val + 256 := h1
  rw [e2] at h1'
  omega

end Cert.KernelIdeal.Hand

end
-- ==== Proof.KI.ValueMin.lean ====
/-
  A value known by the lower bounds it admits.

  Say that an extended real a is the minimum of f over the indices satisfying P when a number lies below a exactly
  when it lies below f i for every such i. The running minima of the two result blocks are carried in this form: the
  +infinity a run starts from is the minimum over no index; taking min with the infimum of f over a new family of
  indices enlarges the index set by that family; and the minimum over every index of a finite type is the infimum.
-/
import Mathlib.Data.EReal.Basic
import Mathlib.Data.Fintype.Lattice
import Mathlib.Order.CompleteLattice.Basic

namespace Chamfer

/-- a is the minimum of f over the indices satisfying P. -/
def MinOver {ι : Type} (a : EReal) (P : ι → Prop) (f : ι → EReal) : Prop :=
  ∀ z : EReal, z ≤ a ↔ ∀ i, P i → z ≤ f i

/-- +infinity is the minimum over no index. -/
theorem MinOver.top {ι : Type} (f : ι → EReal) : MinOver ⊤ (fun _ : ι => False) f :=
  fun _ => ⟨fun _ _ h => h.elim, fun _ => le_top⟩

/-- The same value is the minimum over any equivalent description of the index set. -/
theorem MinOver.congr {ι : Type} {a : EReal} {P Q : ι → Prop} {f : ι → EReal} (ha : MinOver a P f)
    (h : ∀ i, Q i ↔ P i) : MinOver a Q f :=
  fun z => (ha z).trans ⟨fun H i hi => H i ((h i).mp hi), fun H i hi => H i ((h i).mpr hi)⟩

/-- Lowering a to the infimum of f over a finite family g of further indices gives the minimum over the enlarged set. -/
theorem MinOver.step {ι κ : Type} [Fintype κ] (f : ι → EReal) {a : EReal} {P : ι → Prop} (Q : ι → Prop) (g : κ → ι)
    (ha : MinOver a P f) (hQ : ∀ i, Q i ↔ P i ∨ ∃ k, g k = i) :
    MinOver (min a ((Finset.univ : Finset κ).inf fun k => f (g k))) Q f := by
  intro z
  rw [le_min_iff, ha z, Finset.le_inf_iff]
  constructor
  · rintro ⟨h1, h2⟩ i hi
    rcases (hQ i).mp hi with h | ⟨k, rfl⟩
    · exact h1 i h
    · exact h2 k (Finset.mem_univ k)
  · intro h
    exact ⟨fun i hi => h i ((hQ i).mpr (.inl hi)), fun k _ => h (g k) ((hQ _).mpr (.inr ⟨k, rfl⟩))⟩

/-- The minimum over every index of a finite type is the infimum. -/
theorem MinOver.eq_inf {ι : Type} [Fintype ι] {a : EReal} {P : ι → Prop} {f : ι → EReal} (ha : MinOver a P f)
    (hP : ∀ i, P i) : a = (Finset.univ : Finset ι).inf f :=
  eq_of_forall_le_iff fun z => by
    rw [ha z, Finset.le_inf_iff]
    exact ⟨fun h i _ => h i (hP i), fun h i _ => h i (Finset.mem_univ i)⟩

end Chamfer
-- ==== Proof.KI.Value4Acc.lean ====
/-
  Result 0's block along the grid: the running minimum over the predicted tokens.

  Within a run of eight points t = 8 k, ..., 8 k + 7 the batch block and the target tile stay put and the predicted
  tile walks through 0, ..., 7. The block restarts from +infinity at the first point of the run and at every point is
  lowered to the minimum over the 256 predicted tokens of the current tile, so after point n its entry (r, q) is the
  minimum of the clamped squared distances between target token 512 ((n / 8) mod 4) + q and the predicted tokens
  below 256 ((n mod 8) + 1), of batch row 16 (n / 32) + r. At the last point of the run that is every predicted token.
-/
import proofs.«137396_j22797686407325_2_alg».proof.Proof.KI.ValueBlk
import proofs.«137396_j22797686407325_2_alg».proof.Proof.KI.ValueMin

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Chamfer (MinOver)

variable (m : (ℓ : Loc nD τ sig) → Buf (Elt Ideal) ℓ)

/-- One step of result 0's block at point t, on entry (r, q): if the previous entry is the minimum over the predicted
    tokens satisfying P, the new one is the minimum over those and the 256 tokens of the current predicted tile. -/
theorem step4_minOver (c : Dev nD) (t : Fin cfg0.N) (xo : Vec Ideal S16x512 .f32) (P Q : Fin 2048 → Prop)
    (r : Fin 16) (q : Fin 512)
    (hxo : MinOver (xo (ix2 r q)) P (fun i => tileD m c (rowOf t.val r) i (targOf t.val q)))
    (hQ : ∀ i : Fin 2048, Q i ↔ P i ∨ ∃ p : Fin 256, predOf t.val p = i) :
    MinOver (step4 (iblk m c 0 t) (iblk m c 1 t) (iblk m c 2 t) (iblk m c 3 t) xo (ix2 r q)) Q
      (fun i => tileD m c (rowOf t.val r) i (targOf t.val q)) := by
  have h := pay6_apply (iblk m c 0 t) (iblk m c 1 t) (iblk m c 2 t) (iblk m c 3 t) xo r q
  have e : (fun p : Fin 256 => k0_pay3 (iblk m c 0 t) (iblk m c 1 t) (iblk m c 2 t) (iblk m c 3 t) (ix3 r p q))
      = fun p => tileD m c (rowOf t.val r) (predOf t.val p) (targOf t.val q) :=
    funext fun p => entry_apply m c t r p q
  rw [e] at h
  unfold step4
  rw [h]
  exact MinOver.step (fun i => tileD m c (rowOf t.val r) i (targOf t.val q)) Q (predOf t.val) hxo hQ

/-- After point n, entry (r, q) of result 0's block is the minimum over the predicted tokens of the tiles visited so far
    in the current run. -/
theorem outs4_inv (c : Dev nD) : ∀ (n : ℕ) (hn : n < cfg0.N) (r : Fin 16) (q : Fin 512),
    MinOver (outs4 m c n hn (ix2 r q)) (fun i : Fin 2048 => i.val < 256 * (n % 8 + 1))
      (fun i => tileD m c (rowOf n r) i (targOf n q))
  | 0, hn, r, q => by
    have e : outs4 m c 0 hn = step4 (iblk m c 0 ⟨0, hn⟩) (iblk m c 1 ⟨0, hn⟩) (iblk m c 2 ⟨0, hn⟩) (iblk m c 3 ⟨0, hn⟩)
        (k0_pay5 (F := Ideal)) := outs4_reset m c ⟨0, hn⟩ rfl
    rw [e]
    refine step4_minOver m c ⟨0, hn⟩ (k0_pay5 (F := Ideal)) (fun _ => False) _ r q ?_ ?_
    · rw [pay5_apply]; exact MinOver.top _
    · intro i
      rw [pred_mem, false_or]
      show i.val < 256 * (0 % 8 + 1) ↔ (256 * (0 % 8) ≤ i.val ∧ i.val < 256 * (0 % 8 + 1))
      omega
  | n + 1, hn, r, q => by
    by_cases h8 : (n + 1) % 8 = 0
    · have e : outs4 m c (n + 1) hn = step4 (iblk m c 0 ⟨n + 1, hn⟩) (iblk m c 1 ⟨n + 1, hn⟩) (iblk m c 2 ⟨n + 1, hn⟩)
          (iblk m c 3 ⟨n + 1, hn⟩) (k0_pay5 (F := Ideal)) := outs4_reset m c ⟨n + 1, hn⟩ h8
      rw [e]
      refine step4_minOver m c ⟨n + 1, hn⟩ (k0_pay5 (F := Ideal)) (fun _ => False) _ r q ?_ ?_
      · rw [pay5_apply]; exact MinOver.top _
      · intro i
        rw [pred_mem, false_or]
        show i.val < 256 * ((n + 1) % 8 + 1) ↔ (256 * ((n + 1) % 8) ≤ i.val ∧ i.val < 256 * ((n + 1) % 8 + 1))
        omega
    · have e : outs4 m c (n + 1) hn = step4 (iblk m c 0 ⟨n + 1, hn⟩) (iblk m c 1 ⟨n + 1, hn⟩) (iblk m c 2 ⟨n + 1, hn⟩)
          (iblk m c 3 ⟨n + 1, hn⟩) (outs4 m c n (Nat.lt_of_succ_lt hn)) := outs4_acc m c ⟨n + 1, hn⟩ h8
      rw [e]
      refine step4_minOver m c ⟨n + 1, hn⟩ (outs4 m c n (Nat.lt_of_succ_lt hn)) (fun i => i.val < 256 * (n % 8 + 1)) _ r q ?_ ?_
      · have ih := outs4_inv c n (Nat.lt_of_succ_lt hn) r q
        have e1 : rowOf (n + 1) r = rowOf n r :=
          Fin.ext (by show 16 * ((n + 1) / 32 % 4) + r.val = 16 * (n / 32 % 4) + r.val; omega)
        have e2 : targOf (n + 1) q = targOf n q :=
          Fin.ext (by show 512 * ((n + 1) / 8 % 4) + q.val = 512 * (n / 8 % 4) + q.val; omega)
        show MinOver _ _ (fun i => tileD m c (rowOf (n + 1) r) i (targOf (n + 1) q))
        rw [e1, e2]
        exact ih
      · intro i
        rw [pred_mem]
        show i.val < 256 * ((n + 1) % 8 + 1) ↔ i.val < 256 * (n % 8 + 1) ∨ (256 * ((n + 1) % 8) ≤ i.val ∧ i.val < 256 * ((n + 1) % 8 + 1))
        omega

/-- At the last point of a run, entry (r, q) of result 0's block is the minimum over every predicted token. -/
theorem outs4_flush (c : Dev nD) (t : Fin cfg0.N) (h7 : t.val % 8 = 7) (r : Fin 16) (q : Fin 512) :
    outs4 m c t.val t.isLt (ix2 r q)
      = Chamfer.kmin1 (V m c main_v0) (V m c main_v1) (V m c main_v2) (V m c main_v3) (rowOf t.val r) (targOf t.val q) := by
  refine (outs4_inv m c t.val t.isLt r q).eq_inf fun i => ?_
  have := i.isLt
  show i.val < 256 * (t.val % 8 + 1)
  omega

end Cert.KernelIdeal.Hand

end
-- ==== Proof.KI.Value4Final.lean ====
/-
  The kernel's first result array after the run.

  Result 0's window has blocks of 16 rows by 512 target columns, indexed by (batch block, target tile), and is written
  back after the last predicted tile of each (batch block, target tile): at the points t with t mod 8 = 7. There its
  staging block holds, at (r, q), the least clamped squared distance over ALL predicted tokens between batch row
  16 (t / 32) + r and target token 512 ((t / 8) mod 4) + q: the entry of the whole-array function "least clamped
  squared distance" at the array index the block's position (r, q) stands for. The sixteen such blocks tile the
  64 x 2048 array (array index (b, j) lies in the block written back at t = 32 (b / 16) + 8 (j / 512) + 7), so the array
  ends holding that function everywhere.
-/
import proofs.«137396_j22797686407325_2_alg».proof.Proof.KI.ValueBlk
import proofs.«137396_j22797686407325_2_alg».proof.Proof.KI.Value4Acc

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The least clamped squared distance to a predicted token, as an array over (batch row, target token). -/
def G4 (c : Dev nD) : S64x2048.Idx → Elt Ideal .f32 := fun z =>
  Chamfer.kmin1 (V m c main_v0) (V m c main_v1) (V m c main_v2) (V m c main_v3) ⟨(z 0).val, (z 0).isLt⟩ ⟨(z 1).val, (z 1).isLt⟩

/-- What the accumulation over the eight predicted tiles leaves in result 0's staging block at a write-back point. -/
def Acc4 (c : Dev nD) : Prop :=
  ∀ (t : Fin cfg0.N), t.val % 8 = 7 → ∀ (r : Fin 16) (q : Fin 512),
    outs4 m c t.val t.isLt (ix2 r q)
      = Chamfer.kmin1 (V m c main_v0) (V m c main_v1) (V m c main_v2) (V m c main_v3) (rowOf t.val r) (targOf t.val q)

/-- What a write-back point writes back is its block of the array of least distances. -/
theorem flushed4_eq (c : Dev nD) (hacc : Acc4 m c) (t : Fin cfg0.N) (hf : (cfg0.win 4).flush t = true) :
    (dats m 0 c).flushed 4 t = ((cfg0.win 4).blk t).view.read (Elt Ideal) (G4 m c) := by
  have h7 : t.val % 8 = 7 := (flush0_4 t).mp hf
  obtain ⟨-, -, -, -, -, -, -, -, e0, e1, -⟩ := idx_facts t
  show (cfg0.win 4).cut (grid0.coords t) ((dats m 0 c).after 4 t) = _
  rw [after0_4]
  funext y
  have hy0 : (y 0).val < 16 := (y 0).isLt
  have hy1 : (y 1).val < 512 := (y 1).isLt
  have hx : (cfg0.win 4).xinj (grid0.coords t) y = ix2 (⟨(y 0).val, hy0⟩ : Fin 16) (⟨(y 1).val, hy1⟩ : Fin 512) :=
    funext fun a => Fin.ext (by match a with | ⟨0, _⟩ => rfl | ⟨1, _⟩ => rfl)
  refine (congrArg (outs4 m c t.val t.isLt) hx).trans ((hacc t h7 ⟨(y 0).val, hy0⟩ ⟨(y 1).val, hy1⟩).trans ?_)
  rw [View.read_apply]
  unfold G4
  refine congrArg₂ (Chamfer.kmin1 (V m c main_v0) (V m c main_v1) (V m c main_v2) (V m c main_v3)) (Fin.ext ?_) (Fin.ext ?_)
  · show 16 * (t.val / 32 % 4) + (y 0).val = win0_4.index t (0 : Fin 2) * 16 + 1 * (y 0).val
    rw [e0]; omega
  · show 512 * (t.val / 8 % 4) + (y 1).val = win0_4.index t (1 : Fin 2) * 512 + 1 * (y 1).val
    rw [e1]; omega

/-- An index of the array is in point t's block iff each coordinate is in the block's range on its axis. -/
theorem mem_blk4 (t : Fin cfg0.N) (i : S64x2048.Idx) :
    i ∈ ((cfg0.win 4).blk t).view.set
      ↔ ∀ a : Fin 2, win0_4.index t a * S16x512.size a ≤ (i a).val ∧ (i a).val < win0_4.index t a * S16x512.size a + S16x512.size a := by
  show i ∈ ((View.whole main_v4_0).slice (win0_4.rect t)).set ↔ _
  rw [View.set_slice_whole, Rect.mem_set_unit]
  exact Iff.rfl

/-- Every index of the array lies in the block of a write-back point: the point after the last predicted tile of its
    batch block and target tile. -/
theorem cover4 (i : S64x2048.Idx) :
    ∃ t : Fin cfg0.N, (cfg0.win 4).flush t = true ∧ i ∈ ((cfg0.win 4).blk t).view.set := by
  have hN : cfg0.N = 128 := N_0
  have hi0 : (i 0).val < 64 := (i 0).isLt
  have hi1 : (i 1).val < 2048 := (i 1).isLt
  have ht : 32 * ((i 0).val / 16) + 8 * ((i 1).val / 512) + 7 < cfg0.N := by rw [hN]; omega
  refine ⟨⟨32 * ((i 0).val / 16) + 8 * ((i 1).val / 512) + 7, ht⟩, (flush0_4 _).mpr (by show (32 * ((i 0).val / 16) + 8 * ((i 1).val / 512) + 7) % 8 = 7; omega), ?_⟩
  obtain ⟨-, -, -, -, -, -, -, -, e0, e1, -⟩ := idx_facts ⟨32 * ((i 0).val / 16) + 8 * ((i 1).val / 512) + 7, ht⟩
  have e0' : win0_4.index ⟨32 * ((i 0).val / 16) + 8 * ((i 1).val / 512) + 7, ht⟩ (0 : Fin 2) = (32 * ((i 0).val / 16) + 8 * ((i 1).val / 512) + 7) / 32 % 4 := e0
  have e1' : win0_4.index ⟨32 * ((i 0).val / 16) + 8 * ((i 1).val / 512) + 7, ht⟩ (1 : Fin 2) = (32 * ((i 0).val / 16) + 8 * ((i 1).val / 512) + 7) / 8 % 4 := e1
  rw [mem_blk4]
  intro a
  match a with
  | ⟨0, _⟩ =>
    show win0_4.index ⟨32 * ((i 0).val / 16) + 8 * ((i 1).val / 512) + 7, ht⟩ (0 : Fin 2) * 16 ≤ (i 0).val
      ∧ (i 0).val < win0_4.index ⟨32 * ((i 0).val / 16) + 8 * ((i 1).val / 512) + 7, ht⟩ (0 : Fin 2) * 16 + 16
    rw [e0']; omega
  | ⟨1, _⟩ =>
    show win0_4.index ⟨32 * ((i 0).val / 16) + 8 * ((i 1).val / 512) + 7, ht⟩ (1 : Fin 2) * 512 ≤ (i 1).val
      ∧ (i 1).val < win0_4.index ⟨32 * ((i 0).val / 16) + 8 * ((i 1).val / 512) + 7, ht⟩ (1 : Fin 2) * 512 + 512
    rw [e1']; omega

/-- So the array ends holding the least clamped squared distances, given the accumulation over the predicted tiles. -/
theorem final4_of (c : Dev nD) (hacc : Acc4 m c) : (dats m 0 c).arrAt 4 cfg0.N = G4 m c :=
  (dats m 0 c).arrAt_eq_of_cover 4 (G4 m c) (flushed4_eq m c hacc) (cover4)

/-- The kernel's first result array after the run: at (b, j) the least clamped squared distance between target token j
    and a predicted token of batch row b. -/
theorem final4 (c : Dev nD) (b : Fin 64) (j : Fin 2048) :
    (dats m 0 c).arrAt 4 cfg0.N (ix2 b j)
      = Chamfer.kmin1 (V m c main_v0) (V m c main_v1) (V m c main_v2) (V m c main_v3) b j :=
  (congrFun (final4_of m c (fun t h7 r q => outs4_flush m c t h7 r q)) (ix2 b j)).trans rfl

end Cert.KernelIdeal.Hand

end
-- ==== Proof.KI.Value5Acc.lean ====
/-
  The invariant of result 1's staging block over the sweep of the grid.

  Within a batch block the points run through the target tiles jb = 0..3 and, inside each, through the predicted tiles
  ib = 0..7. After the body at point n the entry of block row r and predicted token i is the minimum of the clamped
  squared distance over the target tokens of the tiles already folded into that column: the tiles 0..jb when the
  column's predicted tile is at most ib, and the tiles 0..jb-1 when it comes later in the sweep.
-/
import proofs.«137396_j22797686407325_2_alg».proof.Proof.KI.ValueBlk
import proofs.«137396_j22797686407325_2_alg».proof.Proof.KI.ValueMin

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The target tokens folded into the column of predicted token i after point n. -/
def seen5 (n : ℕ) (i j : Fin 2048) : Prop :=
  (i.val / 256 ≤ n % 8 ∧ j.val < 512 * (n / 8 % 4 + 1)) ∨ (n % 8 < i.val / 256 ∧ j.val < 512 * (n / 8 % 4))

/-- A value equal to a minimum over an index set is that minimum. -/
theorem minOver_of_eq {ι : Type} {a a' : EReal} {P : ι → Prop} {f : ι → EReal} (e : a = a')
    (h : Chamfer.MinOver a' P f) : Chamfer.MinOver a P f := e ▸ h

/-- A restarted block, on the columns of the current predicted tile. -/
theorem inv_reset (c : Dev nD) (t : Fin cfg0.N) (h : t.val % 32 = 0) (r : Fin 16) (i : Fin 2048) :
    Chamfer.MinOver (outs5 m c t.val t.isLt (ix2 r i)) (seen5 t.val i) (fun j => tileD m c (rowOf t.val r) i j) := by
  have hi := i.isLt
  by_cases hin : i.val / 256 = t.val % 8
  · obtain ⟨p, rfl⟩ : ∃ p : Fin 256, predOf t.val p = i := (pred_mem t.val i).mpr ⟨by omega, by omega⟩
    refine minOver_of_eq ((congrFun (outs5_reset m c t h) _).trans
      ((step5_in t (iblk m c 0 t) (iblk m c 1 t) (iblk m c 2 t) (iblk m c 3 t) (k0_pay1 (F := Ideal)) r p).trans
        (congrArg₂ min (pay1_apply _) (congrArg (Finset.univ : Finset (Fin 512)).inf
          (funext fun q => entry_apply m c t r p q))))) ?_
    refine Chamfer.MinOver.step (fun j => tileD m c (rowOf t.val r) (predOf t.val p) j) (seen5 t.val (predOf t.val p))
      (targOf t.val) (Chamfer.MinOver.top _) fun j => ?_
    have hj := j.isLt
    rw [targ_mem, false_or]
    unfold seen5
    omega
  · refine minOver_of_eq ((congrFun (outs5_reset m c t h) _).trans
      ((step5_out t (iblk m c 0 t) (iblk m c 1 t) (iblk m c 2 t) (iblk m c 3 t) (k0_pay1 (F := Ideal)) r i hin).trans
        (pay1_apply _))) ?_
    refine (Chamfer.MinOver.top _).congr fun j => ?_
    have hj := j.isLt
    rw [iff_false]
    unfold seen5
    omega

/-- A continued block: the columns of the current predicted tile take in the current target tile, the others keep. -/
theorem inv_acc (c : Dev nD) (t : Fin cfg0.N) (h : ¬t.val % 32 = 0)
    (ih : ∀ (hn : t.val - 1 < cfg0.N) (r : Fin 16) (i : Fin 2048),
      Chamfer.MinOver (outs5 m c (t.val - 1) hn (ix2 r i)) (seen5 (t.val - 1) i) (fun j => tileD m c (rowOf (t.val - 1) r) i j))
    (r : Fin 16) (i : Fin 2048) :
    Chamfer.MinOver (outs5 m c t.val t.isLt (ix2 r i)) (seen5 t.val i) (fun j => tileD m c (rowOf t.val r) i j) := by
  have hi := i.isLt
  have hN : cfg0.N = 128 := N_0
  have ht := t.isLt
  have hrow : rowOf (t.val - 1) r = rowOf t.val r := Fin.ext (by
    show 16 * ((t.val - 1) / 32 % 4) + r.val = 16 * (t.val / 32 % 4) + r.val
    omega)
  have ih' := ih (Nat.lt_of_le_of_lt (Nat.sub_le _ _) t.isLt) r i
  rw [hrow] at ih'
  by_cases hin : i.val / 256 = t.val % 8
  · obtain ⟨p, rfl⟩ : ∃ p : Fin 256, predOf t.val p = i := (pred_mem t.val i).mpr ⟨by omega, by omega⟩
    refine minOver_of_eq ((congrFun (outs5_acc m c t h) _).trans
      ((step5_in t (iblk m c 0 t) (iblk m c 1 t) (iblk m c 2 t) (iblk m c 3 t) _ r p).trans
        (congrArg (min _) (congrArg (Finset.univ : Finset (Fin 512)).inf
          (funext fun q => entry_apply m c t r p q))))) ?_
    refine Chamfer.MinOver.step (fun j => tileD m c (rowOf t.val r) (predOf t.val p) j) (seen5 t.val (predOf t.val p))
      (targOf t.val) ih' fun j => ?_
    have hj := j.isLt
    rw [targ_mem]
    unfold seen5
    omega
  · refine minOver_of_eq ((congrFun (outs5_acc m c t h) _).trans
      (step5_out t (iblk m c 0 t) (iblk m c 1 t) (iblk m c 2 t) (iblk m c 3 t) _ r i hin)) ?_
    refine ih'.congr fun j => ?_
    have hj := j.isLt
    unfold seen5
    omega

/-- THE INVARIANT: after the body at point n, result 1's staging block holds, at block row r and predicted token i,
    the minimum of the clamped squared distance over the target tokens folded in so far. -/
theorem outs5_inv (c : Dev nD) (n : ℕ) : ∀ (hn : n < cfg0.N) (r : Fin 16) (i : Fin 2048),
    Chamfer.MinOver (outs5 m c n hn (ix2 r i)) (seen5 n i) (fun j => tileD m c (rowOf n r) i j) := by
  induction n with
  | zero => intro hn r i; exact inv_reset m c ⟨0, hn⟩ rfl r i
  | succ k ih =>
    intro hn r i
    by_cases h : (k + 1) % 32 = 0
    · exact inv_reset m c ⟨k + 1, hn⟩ h r i
    · exact inv_acc m c ⟨k + 1, hn⟩ h (fun hn' r' i' => ih hn' r' i') r i

/-- At the last point of a batch block every target token has been folded in: the entry is the minimum over all. -/
theorem outs5_flush (c : Dev nD) (t : Fin cfg0.N) (h : t.val % 32 = 31) (r : Fin 16) (i : Fin 2048) :
    outs5 m c t.val t.isLt (ix2 r i)
      = Chamfer.kmin2 (V m c main_v0) (V m c main_v1) (V m c main_v2) (V m c main_v3) (rowOf t.val r) i := by
  refine (outs5_inv m c t.val t.isLt r i).eq_inf fun j => ?_
  have hi := i.isLt
  have hj := j.isLt
  unfold seen5
  omega

end Cert.KernelIdeal.Hand

end
-- ==== Proof.KI.Value5Final.lean ====
/-
  Result 1's array after the run, as one function of the whole arrays.

  Result 1's block (16 batch rows, all 2048 predicted tokens) is written back at the last point of each batch block,
  the points = 31 mod 32, where it holds for every row of the block and every predicted token the least clamped squared
  distance to a target token. The four write-backs cover the array (batch row b lies in the block written back at point
  32 (b / 16) + 31), so the array ends holding those minima at every index.
-/
import proofs.«137396_j22797686407325_2_alg».proof.Proof.KI.Outs
import proofs.«137396_j22797686407325_2_alg».proof.Proof.KI.ValueBlk
import proofs.«137396_j22797686407325_2_alg».proof.Proof.KI.Value5Acc
import proofs.«137396_j22797686407325_2_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- Result 1 as one function of the whole arrays: for every batch row and predicted token, the least clamped squared
    distance to a target token of the row. -/
def G5 (c : Dev nD) : S64x2048.Idx → EReal := fun z =>
  Chamfer.kmin2 (V m c main_v0) (V m c main_v1) (V m c main_v2) (V m c main_v3) ⟨(z 0).val, (z 0).isLt⟩ ⟨(z 1).val, (z 1).isLt⟩

theorem G5_apply (c : Dev nD) (b : Fin 64) (i : Fin 2048) :
    G5 m c (ix2 b i) = Chamfer.kmin2 (V m c main_v0) (V m c main_v1) (V m c main_v2) (V m c main_v3) b i := rfl

/-- What the block holds when it is written back: at a point = 31 mod 32, the minima of the point's batch rows. -/
def Flush5 (c : Dev nD) : Prop :=
  ∀ t : Fin cfg0.N, t.val % 32 = 31 → ∀ (r : Fin 16) (i' : Fin 2048),
    outs5 m c t.val t.isLt (ix2 r i')
      = Chamfer.kmin2 (V m c main_v0) (V m c main_v1) (V m c main_v2) (V m c main_v3) (rowOf t.val r) i'

/-- The block written back at t, entry by entry, is the whole-array function read where the block lies. -/
theorem flushed5_apply (c : Dev nD) (hfl : Flush5 m c) (t : Fin cfg0.N) (h31 : t.val % 32 = 31) (r : Fin 16) (i' : Fin 2048) :
    outs5 m c t.val t.isLt (ix2 r i') = G5 m c (((cfg0.win 5).blk t).view.emb (ix2 r i')) := by
  obtain ⟨-, -, -, -, -, -, -, -, -, -, e0, e1, -⟩ := idx_facts t
  rw [hfl t h31 r i', ← G5_apply]
  refine congrArg _ (funext fun a => Fin.ext ?_)
  match a with
  | ⟨0, _⟩ => show 16 * (t.val / 32 % 4) + r.val = win0_5.index t (0 : Fin 2) * 16 + 1 * r.val; rw [e0]; omega
  | ⟨1, _⟩ => show i'.val = win0_5.index t (1 : Fin 2) * 2048 + 1 * i'.val; rw [e1]; omega

/-- What a flushing point writes back is its block of the whole-array function. -/
theorem flushed5_eq (c : Dev nD) (hfl : Flush5 m c) (t : Fin cfg0.N) (hf : (cfg0.win 5).flush t = true) :
    (dats m 0 c).flushed 5 t = ((cfg0.win 5).blk t).view.read (Elt Ideal) (G5 m c) := by
  have h31 : t.val % 32 = 31 := (flush0_5 t).mp hf
  show (cfg0.win 5).cut (grid0.coords t) ((dats m 0 c).after 5 t) = _
  rw [after0_5]
  funext y
  rw [View.read_apply]
  show outs5 m c t.val t.isLt y = G5 m c (((cfg0.win 5).blk t).view.emb y)
  have hy : (y : S16x2048.Idx) = ix2 (y 0) (y 1) := eq_ix2 y
  exact hy ▸ flushed5_apply m c hfl t h31 (y 0) (y 1)

/-- An index of the array is in point t's block exactly when each coordinate is in the block's range on its axis. -/
theorem mem_blk5 (t : Fin cfg0.N) (i : S64x2048.Idx) :
    i ∈ ((cfg0.win 5).blk t).view.set ↔ ∀ a : Fin 2, win0_5.index t a * S16x2048.size a ≤ (i a).val
      ∧ (i a).val < win0_5.index t a * S16x2048.size a + S16x2048.size a := by
  show i ∈ ((View.whole main_v4_1).slice (win0_5.rect t)).set ↔ _
  rw [View.set_slice_whole, Rect.mem_set_unit]
  exact Iff.rfl

/-- Every index lies in a block that is written back: batch row b in the one of point 32 (b / 16) + 31. -/
theorem cover5 (i : S64x2048.Idx) :
    ∃ t : Fin cfg0.N, (cfg0.win 5).flush t = true ∧ i ∈ ((cfg0.win 5).blk t).view.set := by
  have hi0 : (i 0).val < 64 := (i 0).isLt
  have hi1 : (i 1).val < 2048 := (i 1).isLt
  have hN : 32 * ((i 0).val / 16) + 31 < cfg0.N := by show _ < 128; omega
  obtain ⟨-, -, -, -, -, -, -, -, -, -, e0, e1, -⟩ := idx_facts ⟨32 * ((i 0).val / 16) + 31, hN⟩
  have e0' : win0_5.index ⟨32 * ((i 0).val / 16) + 31, hN⟩ (0 : Fin 2) = (32 * ((i 0).val / 16) + 31) / 32 % 4 := e0
  refine ⟨⟨32 * ((i 0).val / 16) + 31, hN⟩, (flush0_5 _).mpr (by show (32 * ((i 0).val / 16) + 31) % 32 = 31; omega), ?_⟩
  rw [mem_blk5]
  intro a
  match a with
  | ⟨0, _⟩ =>
    show win0_5.index ⟨32 * ((i 0).val / 16) + 31, hN⟩ (0 : Fin 2) * 16 ≤ (i 0).val
      ∧ (i 0).val < win0_5.index ⟨32 * ((i 0).val / 16) + 31, hN⟩ (0 : Fin 2) * 16 + 16
    rw [e0']; omega
  | ⟨1, _⟩ =>
    show win0_5.index ⟨32 * ((i 0).val / 16) + 31, hN⟩ (1 : Fin 2) * 2048 ≤ (i 1).val
      ∧ (i 1).val < win0_5.index ⟨32 * ((i 0).val / 16) + 31, hN⟩ (1 : Fin 2) * 2048 + 2048
    rw [e1]; omega

/-- The array after the run, from what the block holds at its write-backs. -/
theorem final5_of (c : Dev nD) (hfl : Flush5 m c) (b : Fin 64) (i : Fin 2048) :
    (dats m 0 c).arrAt 5 cfg0.N (ix2 b i)
      = Chamfer.kmin2 (V m c main_v0) (V m c main_v1) (V m c main_v2) (V m c main_v3) b i := by
  have h := (dats m 0 c).arrAt_eq_of_cover 5 (G5 m c) (fun t hf => flushed5_eq m c hfl t hf) (cover5)
  exact (congrFun h (ix2 b i)).trans (G5_apply m c b i)

/-- The array after the run: at every index the least clamped squared distance from the predicted token to a target
    token of its batch row. -/
theorem final5 (c : Dev nD) (b : Fin 64) (i : Fin 2048) :
    (dats m 0 c).arrAt 5 cfg0.N (ix2 b i)
      = Chamfer.kmin2 (V m c main_v0) (V m c main_v1) (V m c main_v2) (V m c main_v3) b i :=
  final5_of m c (fun t h r i' => outs5_flush m c t h r i') b i

end Cert.KernelIdeal.Hand

end
-- ==== Proof.KI.Prefix.lean ====
/-
  What the region finds in its four input arrays: the four slices the host takes before the region are the first
  and the last 2048 columns of the two argument arrays.
-/
import proofs.«137396_j22797686407325_2_alg».proof.Proof.Gen.KernelIdeal.Frame
import proofs.«137396_j22797686407325_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.StableHlo
open Idealize.SL.Sem
open Cert.KernelIdeal Cert.KernelIdeal.Gen

/-- The slice of columns 0..2047 of every row is the first half. -/
theorem slice_lo (x : FVec Ideal S64x4096 .f32) :
    extractStridedSlice S64x2048 ![0, 0] x slices_S64x4096_S64x2048_0_0 = Chamfer.lo x := by
  funext z
  unfold Chamfer.lo
  exact extractStridedSlice_apply ![0, 0] x slices_S64x4096_S64x2048_0_0 z _ (fun a => match a with
    | ⟨0, _⟩ => by show (z 0).val = 0 + (z 0).val; omega
    | ⟨1, _⟩ => by show (z 1).val = 0 + (z 1).val; omega)

/-- The slice of columns 2048..4095 of every row is the second half. -/
theorem slice_hi (x : FVec Ideal S64x4096 .f32) :
    extractStridedSlice S64x2048 ![0, 2048] x slices_S64x4096_S64x2048_0_2048 = Chamfer.hi x := by
  funext z
  unfold Chamfer.hi
  exact extractStridedSlice_apply ![0, 2048] x slices_S64x4096_S64x2048_0_2048 z _ (fun a => match a with
    | ⟨0, _⟩ => by show (z 0).val = 0 + (z 0).val; omega
    | ⟨1, _⟩ => by show 2048 + (z 1).val = 2048 + (z 1).val; omega)

variable (m : (ℓ : Loc nD τ sig) → Buf (Elt Ideal) ℓ)

/-- The first input array of the region: the first half of the first argument. -/
theorem V_main_v0 (c : Dev nD) :
    (V m c main_v0 : FVec Ideal S64x2048 .f32) = Chamfer.lo (m ((c.tc : Thread nD τ).loc main_arg0)) := by
  refine Eq.trans ?_ (slice_lo _)
  show StableHlo.after hostOps0 (fun b => m (c, b)) (Proc.devRef .tc main_v0) = _
  after_results

/-- The second input array of the region: the second half of the first argument. -/
theorem V_main_v1 (c : Dev nD) :
    (V m c main_v1 : FVec Ideal S64x2048 .f32) = Chamfer.hi (m ((c.tc : Thread nD τ).loc main_arg0)) := by
  refine Eq.trans ?_ (slice_hi _)
  show StableHlo.after hostOps0 (fun b => m (c, b)) (Proc.devRef .tc main_v1) = _
  after_results

/-- The third input array of the region: the first half of the second argument. -/
theorem V_main_v2 (c : Dev nD) :
    (V m c main_v2 : FVec Ideal S64x2048 .f32) = Chamfer.lo (m ((c.tc : Thread nD τ).loc main_arg1)) := by
  refine Eq.trans ?_ (slice_lo _)
  show StableHlo.after hostOps0 (fun b => m (c, b)) (Proc.devRef .tc main_v2) = _
  after_results

/-- The fourth input array of the region: the second half of the second argument. -/
theorem V_main_v3 (c : Dev nD) :
    (V m c main_v3 : FVec Ideal S64x2048 .f32) = Chamfer.hi (m ((c.tc : Thread nD τ).loc main_arg1)) := by
  refine Eq.trans ?_ (slice_hi _)
  show StableHlo.after hostOps0 (fun b => m (c, b)) (Proc.devRef .tc main_v3) = _
  after_results

end Cert.KernelIdeal.Hand

end
-- ==== Proof.LibFiniteAll.lean ====
/-
  A finiteness predicate read back at the ideal instance. A host predicate that tests a float array for finiteness computes
  the conjunction, over all its entries, of |x| < +∞ (an ordered less-than comparison of the absolute value against the
  splat of the +∞ word of f32), as a reduction by `and` from the constant 1 into a result of one index. At the ideal
  instance |x| is max x (-x) over the extended reals and the +∞ word denotes ⊤, so the bit being 1 says that every
  entry is a real number. Generic in the operand shape, the reduced axes, the scalar shape the constant is splat from
  and the initial value.
-/
import Idealize.ShloMosaic.Lib.StableHlo
import Idealize.ShloMosaic.Lib.ReduceAll
import Idealize.ShloMosaic.PureOps
import Idealize.ShloMosaic.PureOps.Ideal
import Idealize.ShloMosaic.PureOps.Ideal.Laws

noncomputable section

namespace Cert.LibFiniteAll

open Idealize.ShloMosaic

/-- The rank-0 shape has one index. -/
instance subsingleton_idx0 : Subsingleton (⟨0, ![]⟩ : Shape).Idx := ⟨fun a b => funext fun d => d.elim0⟩

/-- The conjunction of two `i1` vectors is 1 at an index exactly when both are. -/
theorem andi_apply_eq_one {s : Shape} (x y : IVec s 1) (i : s.Idx) :
    andi x y i = 1#1 ↔ x i = 1#1 ∧ y i = 1#1 := IntOp.andi_eq_one

/-- An extended real whose magnitude max x (-x) compares below the +∞ word of f32 is a real number. -/
theorem real_of_abs_olt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The comparison |a| < splat(+∞) that is 1 at an entry: that entry is a real number. -/
theorem real_of_cmp_entry {s c : Shape} {dims : Fin c.rank → Fin s.rank} (hb : c.BroadcastsInDim s dims)
    (a : FVec Ideal s .f32) (i : s.Idx)
    (e : cmpf .olt (Host.absf a) (broadcastInDim s dims hb (constant (F := Ideal) c .f32 0x7F800000#32)) i = 1#1) :
    ∃ r : ℝ, a i = (r : EReal) :=
  real_of_abs_olt_inf (a i) e

/-- THE PREDICATE READ BACK, the comparison given as a vector `p` known entrywise: if the reduction by `and` of `p` into a
    result of one index is 1 and `p` is the comparison |a| < splat(+∞), every entry of `a` is a real number. -/
theorem real_of_all_of_eq {s t u c : Shape} {axes : List (Fin s.rank)} [Subsingleton t.Idx]
    {dims : Fin c.rank → Fin s.rank} (hb : c.BroadcastsInDim s dims)
    (a : FVec Ideal s .f32) (p : IVec s 1) (init : u.Idx → BitVec 1) (h : s.ReducesTo axes t) (hu : 0 < u.numel) (j : t.Idx)
    (hp : p = cmpf .olt (Host.absf a) (broadcastInDim s dims hb (constant (F := Ideal) c .f32 0x7F800000#32)))
    (e : Host.reduce IntOp.andi p init h hu j = 1#1) :
    ∀ i, ∃ r : ℝ, a i = (r : EReal) := by
  intro i
  have hi := Host.reduce_andi_all p init h hu j e i
  rw [hp] at hi
  exact real_of_cmp_entry hb a i hi

/-- THE PREDICATE READ BACK: if the reduction by `and`, into a result of one index, of |a| < splat(+∞) is 1, every entry
    of `a` is a real number. -/
theorem real_of_all {s t u c : Shape} {axes : List (Fin s.rank)} [Subsingleton t.Idx]
    {dims : Fin c.rank → Fin s.rank} (hb : c.BroadcastsInDim s dims)
    (a : FVec Ideal s .f32) (init : u.Idx → BitVec 1) (h : s.ReducesTo axes t) (hu : 0 < u.numel) (j : t.Idx)
    (e : Host.reduce IntOp.andi
          (cmpf .olt (Host.absf a) (broadcastInDim s dims hb (constant (F := Ideal) c .f32 0x7F800000#32))) init h hu j = 1#1) :
    ∀ i, ∃ r : ℝ, a i = (r : EReal) :=
  real_of_all_of_eq hb a _ init h hu j rfl e

end Cert.LibFiniteAll

end
-- ==== Proof.KI.Pre.lean ====
/-
  The precondition read back: when the finiteness predicate of the two argument arrays is all ones, every entry of
  both arrays is a real number; and then so is every entry of either half of an array.
-/
import proofs.«137396_j22797686407325_2_alg».proof.Defs
import proofs.«137396_j22797686407325_2_alg».proof.Proof.Gen.Pre_finite_inputs
import proofs.«137396_j22797686407325_2_alg».proof.Proof.LibFiniteAll
import proofs.«137396_j22797686407325_2_alg».proof.Proof.Spec
import Idealize.ShloMosaic.Lib.ValueIdx

noncomputable section

namespace Cert.KernelIdeal.Hand

open Idealize.ShloMosaic Idealize.ShloMosaic.TcCoe
open Idealize.SL.Sem
open Cert.KernelIdeal

/-- Under the precondition every entry of both argument arrays is a real number. -/
theorem finite_of_pre (m : (ℓ : Loc nD τ sig) → Buf (Elt Ideal) ℓ) (h : Cert.Pre_KernelIdeal m) (c : Dev nD) :
    (∀ z, ∃ r : ℝ, m ((c.tc : Thread nD τ).loc main_arg0) z = (r : EReal))
    ∧ (∀ z, ∃ r : ℝ, m ((c.tc : Thread nD τ).loc main_arg1) z = (r : EReal)) := by
  have h0 := congrFun (h c) ValueIdx.ix0
  dsimp only [Cert.Pre_finite_inputs.fn] at h0
  have h1 := (Cert.LibFiniteAll.andi_apply_eq_one _ _ _).mp h0
  exact ⟨Cert.LibFiniteAll.real_of_all _ _ _ _ _ _ h1.1, Cert.LibFiniteAll.real_of_all _ _ _ _ _ _ h1.2⟩

/-- Every entry of the first half of an array of real numbers is a real number. -/
theorem lo_real (x : FVec Ideal Chamfer.S64x4096 .f32) (hx : ∀ z, ∃ r : ℝ, x z = (r : EReal)) :
    ∀ z, ∃ r : ℝ, Chamfer.lo x z = (r : EReal) := fun z => hx _

/-- Every entry of the second half of an array of real numbers is a real number. -/
theorem hi_real (x : FVec Ideal Chamfer.S64x4096 .f32) (hx : ∀ z, ∃ r : ℝ, x z = (r : EReal)) :
    ∀ z, ∃ r : ℝ, Chamfer.hi x z = (r : EReal) := fun z => hx _

end Cert.KernelIdeal.Hand

end
-- ==== Proof.Ref.Entry.lean ====
/-
  One entry of the reference's 64 x 2048 x 2048 array of distances.

  The reference splits each input row into its 2048 frequencies and 2048 amplitudes, stacks the two as the pairs
  (frequency, amplitude) along a last axis of size two, and computes, for batch row b, predicted token i and target token j,
      sqrt (max (p2 b i + t2 b j - 2 * gram b i j) 0),
  where p2 and t2 are the sums over the pair of the squared coordinates and gram is the sum over the pair of the products.
  Read at one index, each of these is a sum of two terms: the frequency term and the amplitude term.
-/
import proofs.«137396_j22797686407325_2_alg».proof.Proof.Gen.ReferenceIdeal.Read
import proofs.«137396_j22797686407325_2_alg».proof.Proof.Spec

noncomputable section

namespace Cert.ReferenceIdeal.Hand

open Cert.ReferenceIdeal Cert.ReferenceIdeal.Gen Cert.ReferenceIdeal.Read
open Idealize.ShloMosaic Idealize.ShloMosaic.ValueIdx

/-! ## The two literals -/

/-- The word 0x40000000 is the number two. -/
theorem ofBits_two : Ideal.ofBits .f32 0x40000000#32 = (2 : EReal) := by
  simp [Ideal.ofBits, Ideal.ieee, -EReal.coe_mul]; norm_num; rfl

/-! ## The stacked pairs at an index -/

/-- The pair array's coordinate 0 is the frequency. -/
theorem pair_apply_lo (x : (⟨S64x4096, .f32⟩ : BufTy).Contents (Elt Ideal)) (b : Fin 64) (i : Fin 2048) :
    val_main_v4 (F := Ideal) x (ix3 b i (0 : Fin 2)) = Chamfer.lo x (ix2 b i) := by
  unfold val_main_v4
  refine (concatenate_pair_apply_left (2 : Fin S64x2048x2.rank) (val_main_v2 (F := Ideal) x) (val_main_v3 (F := Ideal) x)
    concatenates_S64x2048x1_S64x2048x1_S64x2048x2_d2 (ix3 b i (0 : Fin 2)) rfl (ix3 b i (0 : Fin 1))
    (fun a => match a with | ⟨0, _⟩ => rfl | ⟨1, _⟩ => rfl | ⟨2, _⟩ => rfl)).trans ?_
  rw [val_main_v2_apply, val_main_v0_apply]
  exact congrArg x (funext fun a => match a with | ⟨0, _⟩ => rfl | ⟨1, _⟩ => rfl)

/-- The pair array's coordinate 1 is the amplitude. -/
theorem pair_apply_hi (x : (⟨S64x4096, .f32⟩ : BufTy).Contents (Elt Ideal)) (b : Fin 64) (i : Fin 2048) :
    val_main_v4 (F := Ideal) x (ix3 b i (1 : Fin 2)) = Chamfer.hi x (ix2 b i) := by
  unfold val_main_v4
  refine (concatenate_pair_apply_right (2 : Fin S64x2048x2.rank) (val_main_v2 (F := Ideal) x) (val_main_v3 (F := Ideal) x)
    concatenates_S64x2048x1_S64x2048x1_S64x2048x2_d2 (ix3 b i (1 : Fin 2)) rfl rfl (ix3 b i (0 : Fin 1))
    (fun a => match a with | ⟨0, _⟩ => fun _ => rfl | ⟨1, _⟩ => fun _ => rfl | ⟨2, _⟩ => fun h => absurd rfl h) rfl).trans ?_
  rw [val_main_v3_apply, val_main_v1_apply]
  exact congrArg x (funext fun a => match a with | ⟨0, _⟩ => rfl | ⟨1, _⟩ => rfl)

/-- The second input goes through the same operations as the first. -/
theorem pair_second (y : (⟨S64x4096, .f32⟩ : BufTy).Contents (Elt Ideal)) :
    val_main_v9 (F := Ideal) y = val_main_v4 (F := Ideal) y := rfl

/-- So do its squares summed over the pair. -/
theorem sqsum_second (y : (⟨S64x4096, .f32⟩ : BufTy).Contents (Elt Ideal)) :
    val_main_v13 (F := Ideal) y = val_main_v11 (F := Ideal) y := rfl

/-! ## The sums over the pair -/

/-- The squared norm of token i of row b: the frequency squared plus the amplitude squared. -/
theorem sqsum_apply (x : (⟨S64x4096, .f32⟩ : BufTy).Contents (Elt Ideal)) (b : Fin 64) (i : Fin 2048) :
    val_main_v11 (F := Ideal) x (ix2 b i)
      = Chamfer.lo x (ix2 b i) * Chamfer.lo x (ix2 b i) + Chamfer.hi x (ix2 b i) * Chamfer.hi x (ix2 b i) := by
  have e0 : idx_main_v11 (ix2 b i) (0 : Fin 2) = ix3 b i (0 : Fin 2) :=
    funext fun a => match a with | ⟨0, _⟩ => rfl | ⟨1, _⟩ => rfl | ⟨2, _⟩ => rfl
  have e1 : idx_main_v11 (ix2 b i) (1 : Fin 2) = ix3 b i (1 : Fin 2) :=
    funext fun a => match a with | ⟨0, _⟩ => rfl | ⟨1, _⟩ => rfl | ⟨2, _⟩ => rfl
  have hz : val_main_cst (F := Ideal) (Shape.Idx.first h_S_) = (0 : EReal) := Ideal.ofBits_zero_f32
  rw [val_main_v11_apply, Fin.sum_univ_two, e0, e1, val_main_v10_apply, val_main_v10_apply, pair_apply_lo, pair_apply_hi, hz,
    zero_add]
  rfl

/-- The inner product of predicted token i and target token j of row b: the product of the frequencies plus the product
    of the amplitudes. -/
theorem gram_apply (x y : (⟨S64x4096, .f32⟩ : BufTy).Contents (Elt Ideal)) (b : Fin 64) (i j : Fin 2048) :
    val_main_v14 (F := Ideal) x y (ix3 b i j)
      = Chamfer.lo x (ix2 b i) * Chamfer.lo y (ix2 b j) + Chamfer.hi x (ix2 b i) * Chamfer.hi y (ix2 b j) := by
  have l0 : lidx_main_v14 (ix3 b i j) (0 : Fin 2) = ix3 b i (0 : Fin 2) :=
    funext fun a => match a with | ⟨0, _⟩ => rfl | ⟨1, _⟩ => rfl | ⟨2, _⟩ => rfl
  have l1 : lidx_main_v14 (ix3 b i j) (1 : Fin 2) = ix3 b i (1 : Fin 2) :=
    funext fun a => match a with | ⟨0, _⟩ => rfl | ⟨1, _⟩ => rfl | ⟨2, _⟩ => rfl
  have r0 : ridx_main_v14 (ix3 b i j) (0 : Fin 2) = ix3 b j (0 : Fin 2) :=
    funext fun a => match a with | ⟨0, _⟩ => rfl | ⟨1, _⟩ => rfl | ⟨2, _⟩ => rfl
  have r1 : ridx_main_v14 (ix3 b i j) (1 : Fin 2) = ix3 b j (1 : Fin 2) :=
    funext fun a => match a with | ⟨0, _⟩ => rfl | ⟨1, _⟩ => rfl | ⟨2, _⟩ => rfl
  rw [val_main_v14_apply, Fin.sum_univ_two, l0, l1, r0, r1, pair_second, pair_apply_lo, pair_apply_hi, pair_apply_lo,
    pair_apply_hi]

/-! ## One entry of the array of distances -/

/-- Entry (b, i, j) of the reference's array of distances is the square root of the clamped expanded square. -/
theorem entry_apply (x y : (⟨S64x4096, .f32⟩ : BufTy).Contents (Elt Ideal)) (b : Fin 64) (i j : Fin 2048) :
    val_main_v25 (F := Ideal) x y (ix3 b i j)
      = Chamfer.r2 (Chamfer.lo x) (Chamfer.hi x) (Chamfer.lo y) (Chamfer.hi y) b i j := by
  have hp : val_main_v17 (F := Ideal) x (ix3 b i j) = val_main_v11 (F := Ideal) x (ix2 b i) := by
    rw [val_main_v17_apply, val_main_v15_apply]
    exact congrArg (val_main_v11 (F := Ideal) x) (funext fun a => match a with | ⟨0, _⟩ => rfl | ⟨1, _⟩ => rfl)
  have ht : val_main_v18 (F := Ideal) y (ix3 b i j) = val_main_v11 (F := Ideal) y (ix2 b j) := by
    rw [val_main_v18_apply, val_main_v16_apply, sqsum_second]
    exact congrArg (val_main_v11 (F := Ideal) y) (funext fun a => match a with | ⟨0, _⟩ => rfl | ⟨1, _⟩ => rfl)
  have h2 : val_main_v20 (F := Ideal) (ix3 b i j) = (2 : EReal) := by
    rw [val_main_v20_apply]; exact ofBits_two
  have h0 : val_main_v23 (F := Ideal) (ix3 b i j) = (0 : EReal) := by
    rw [val_main_v23_apply]; exact Ideal.ofBits_zero_f32
  rw [val_main_v25_apply, val_main_v24_apply, val_main_v22_apply, val_main_v19_apply, val_main_v21_apply, hp, ht, h2, h0,
    gram_apply, sqsum_apply, sqsum_apply]
  rfl

end Cert.ReferenceIdeal.Hand

end
-- ==== Proof.Ref.Min.lean ====
/-
  The reference's two minima.

  The host's reduction with a minimum body over one axis, started from the word of +infinity, is at each index the
  infimum over that axis: a fold of min from the top element. Over the predicted tokens (axis 1) it gives, for every
  target token, the least distance to a predicted token; over the target tokens (axis 2), for every predicted token,
  the least distance to a target token.
-/
import proofs.«137396_j22797686407325_2_alg».proof.Proof.Ref.Entry
import Idealize.ShloMosaic.PureOps.Reduce

noncomputable section

namespace Cert.ReferenceIdeal.Hand

open Cert.ReferenceIdeal Cert.ReferenceIdeal.Gen Cert.ReferenceIdeal.Read
open Idealize.ShloMosaic Idealize.ShloMosaic.ValueIdx

/-! ## A fold of min from the top element is the infimum -/

theorem fold_min_top {ι : Type} (s : Finset ι) (f : ι → EReal) : s.fold min ⊤ f = s.inf f := by
  classical
  induction s using Finset.induction_on with
  | empty => rfl
  | insert a s ha ih => rw [Finset.fold_insert ha, Finset.inf_insert, ih]

/-- The word 0x7F800000 is +infinity, the top element. -/
theorem ofBits_inf : Ideal.ofBits .f32 0x7F800000#32 = (⊤ : EReal) := by
  simp [Ideal.ofBits, Ideal.ieee]

/-! ## The index over a reduced index, with the dropped coordinate put back -/

theorem lift_d1 (h : S64x2048x2048.Reduces [1] S64x2048) (b : Fin 64) (j : Fin 2048) (k : Fin (S64x2048x2048.size 1)) :
    h.lift (ix2 b j) k = ix3 b (⟨k.val, k.isLt⟩ : Fin 2048) j := by
  funext c; apply Fin.ext
  fin_cases c <;> rfl

theorem lift_d2 (h : S64x2048x2048.Reduces [2] S64x2048) (b : Fin 64) (i : Fin 2048) (k : Fin (S64x2048x2048.size 2)) :
    h.lift (ix2 b i) k = ix3 b i (⟨k.val, k.isLt⟩ : Fin 2048) := by
  funext c; apply Fin.ext
  fin_cases c <;> rfl

/-! ## The host's minimum over one axis of a 64 x 2048 x 2048 array -/

/-- Over axis 1, from +infinity: at (b, j) the infimum over i of the entries (b, i, j). -/
theorem hostMin_d1 (X : FVec Ideal S64x2048x2048 .f32) (b : Fin 64) (j : Fin 2048) :
    Host.reduce FloatOps.minimumf X (constant (F := Ideal) S_ .f32 0x7F800000#32) reducesTo_S64x2048x2048_S64x2048_d1 h_S_ (ix2 b j)
      = (Finset.univ : Finset (Fin 2048)).inf fun i => X (ix3 b i j) := by
  have hr : S64x2048x2048.Reduces [1] S64x2048 :=
    ⟨reducesTo_S64x2048x2048_S64x2048_d1.1, by decide, reducesTo_S64x2048x2048_S64x2048_d1.2⟩
  rw [Host.reduce_eq_fold_single FloatOps.minimumf X _ reducesTo_S64x2048x2048_S64x2048_d1 hr h_S_, ← fold_min_top]
  have hf : (X ∘ hr.lift (ix2 b j)) = fun i : Fin 2048 => X (ix3 b i j) := funext fun k => congrArg X (lift_d1 hr b j k)
  have hi : constant (F := Ideal) S_ .f32 0x7F800000#32 (Shape.Idx.first h_S_) = (⊤ : EReal) := ofBits_inf
  rw [hi]
  exact congrArg (fun f => Finset.fold min (⊤ : EReal) f (Finset.univ : Finset (Fin 2048))) hf

/-- Over axis 2, from +infinity: at (b, i) the infimum over j of the entries (b, i, j). -/
theorem hostMin_d2 (X : FVec Ideal S64x2048x2048 .f32) (b : Fin 64) (i : Fin 2048) :
    Host.reduce FloatOps.minimumf X (constant (F := Ideal) S_ .f32 0x7F800000#32) reducesTo_S64x2048x2048_S64x2048_d2 h_S_ (ix2 b i)
      = (Finset.univ : Finset (Fin 2048)).inf fun j => X (ix3 b i j) := by
  have hr : S64x2048x2048.Reduces [2] S64x2048 :=
    ⟨reducesTo_S64x2048x2048_S64x2048_d2.1, by decide, reducesTo_S64x2048x2048_S64x2048_d2.2⟩
  rw [Host.reduce_eq_fold_single FloatOps.minimumf X _ reducesTo_S64x2048x2048_S64x2048_d2 hr h_S_, ← fold_min_top]
  have hf : (X ∘ hr.lift (ix2 b i)) = fun j : Fin 2048 => X (ix3 b i j) := funext fun k => congrArg X (lift_d2 hr b i k)
  have hi : constant (F := Ideal) S_ .f32 0x7F800000#32 (Shape.Idx.first h_S_) = (⊤ : EReal) := ofBits_inf
  rw [hi]
  exact congrArg (fun f => Finset.fold min (⊤ : EReal) f (Finset.univ : Finset (Fin 2048))) hf

/-! ## The reference's two arrays of minima -/

/-- For every target token, the least distance to a predicted token of the same row. -/
theorem min1_eq (x y : (⟨S64x4096, .f32⟩ : BufTy).Contents (Elt Ideal)) :
    val_main_v26 (F := Ideal) x y = Chamfer.rres1 (Chamfer.lo x) (Chamfer.hi x) (Chamfer.lo y) (Chamfer.hi y) := by
  funext z
  obtain ⟨b, j, rfl⟩ : ∃ (b : Fin 64) (j : Fin 2048), z = ix2 b j := ⟨z 0, z 1, eq_ix2 z⟩
  exact (hostMin_d1 (val_main_v25 (F := Ideal) x y) b j).trans (Finset.inf_congr rfl fun i _ => entry_apply x y b i j)

/-- For every predicted token, the least distance to a target token of the same row. -/
theorem min2_eq (x y : (⟨S64x4096, .f32⟩ : BufTy).Contents (Elt Ideal)) :
    val_main_v30 (F := Ideal) x y = Chamfer.rres2 (Chamfer.lo x) (Chamfer.hi x) (Chamfer.lo y) (Chamfer.hi y) := by
  funext z
  obtain ⟨b, i, rfl⟩ : ∃ (b : Fin 64) (i : Fin 2048), z = ix2 b i := ⟨z 0, z 1, eq_ix2 z⟩
  exact (hostMin_d2 (val_main_v25 (F := Ideal) x y) b i).trans (Finset.inf_congr rfl fun j _ => entry_apply x y b i j)

end Cert.ReferenceIdeal.Hand

end
-- ==== Proof.Ref.Value.lean ====
/-
  The reference's result as the specification.

  After the two arrays of minima the reference only averages: the row sums of each array from zero divided by 2048,
  the two added, summed over the 64 rows from zero and divided by 64. Those last operations are the averaging of the
  specification applied to the two arrays, word for word; the two arrays are the specification's minima of the distances
  by the expanded square.
-/
import proofs.«137396_j22797686407325_2_alg».proof.Proof.Ref.Min

noncomputable section

namespace Cert.ReferenceIdeal.Hand

open Cert.ReferenceIdeal Cert.ReferenceIdeal.Gen Cert.ReferenceIdeal.Read
open Idealize.ShloMosaic Idealize.ShloMosaic.TcCoe Idealize.SL.Sem Idealize.ShloMosaic.ValueIdx

/-- The reference's last operations are the averaging applied to its two arrays of minima. -/
theorem tail_eq (x y : (⟨S64x4096, .f32⟩ : BufTy).Contents (Elt Ideal)) :
    val_main_v36 (F := Ideal) x y
      = Chamfer.tail reducesTo_S64x2048_S64_d1 h_S_ bcast_S_S64 reducesTo_S64_S_d0
          (val_main_v26 (F := Ideal) x y) (val_main_v30 (F := Ideal) x y) := by
  unfold val_main_v36 val_main_v35 val_main_v34 val_main_v33 val_main_v29 val_main_v32 val_main_v28 val_main_v31 val_main_v27
  generalize val_main_v26 (F := Ideal) x y = A
  generalize val_main_v30 (F := Ideal) x y = B
  rfl

/-- The reference's result is the averaging of the two arrays of least distances by the expanded square. -/
theorem res_eq (m : (ℓ : Loc nD τ sig) → Buf (Elt Ideal) ℓ) (c : Dev nD) :
    Cert.ReferenceIdeal.Value.res_main_v36 (F := Ideal) m c
      = Chamfer.tail reducesTo_S64x2048_S64_d1 h_S_ bcast_S_S64 reducesTo_S64_S_d0
          (Chamfer.rres1 (Chamfer.lo (m ((c.tc : Thread nD τ).loc main_arg0))) (Chamfer.hi (m ((c.tc : Thread nD τ).loc main_arg0)))
            (Chamfer.lo (m ((c.tc : Thread nD τ).loc main_arg1))) (Chamfer.hi (m ((c.tc : Thread nD τ).loc main_arg1))))
          (Chamfer.rres2 (Chamfer.lo (m ((c.tc : Thread nD τ).loc main_arg0))) (Chamfer.hi (m ((c.tc : Thread nD τ).loc main_arg0)))
            (Chamfer.lo (m ((c.tc : Thread nD τ).loc main_arg1))) (Chamfer.hi (m ((c.tc : Thread nD τ).loc main_arg1)))) := by
  rw [val_main_v36_eq, tail_eq, min1_eq, min2_eq]

end Cert.ReferenceIdeal.Hand

end
-- ==== Proof.Math.lean ====
/-
  The mathematics joining the two sides, on the extended reals. No program is imported.

  For real entries the clamped squared distance equals the clamp of the expanded square
      (a - c)^2 + (b - d)^2 = (a^2 + b^2) + (c^2 + d^2) - 2 (a c + b d),
  so the entrywise distance of the second side is the square root of d2. The square root of the extended reals
  is monotone and fixes the top element, hence commutes with a finite infimum; and an infimum of nonnegative
  terms is nonnegative, so the outer clamp of the first side does nothing.
-/
import proofs.«137396_j22797686407325_2_alg».proof.Proof.Spec

noncomputable section

namespace Chamfer

open Idealize.ShloMosaic Idealize.ShloMosaic.ValueIdx

/-- The square root of the extended reals (bottom below zero) is monotone. -/
theorem sqrt_mono : Monotone Ideal.sqrt := by
  intro x y h
  induction x using EReal.rec with
  | bot => simp
  | top =>
    have hy : y = ⊤ := top_le_iff.mp h
    subst hy
    exact le_rfl
  | coe a =>
    induction y using EReal.rec with
    | bot => exact absurd h (by simp)
    | top => simp
    | coe b =>
      have hab : a ≤ b := EReal.coe_le_coe_iff.mp h
      simp only [Ideal.sqrt_coe]
      by_cases ha : a < 0
      · simp [ha]
      · have hb : ¬ b < 0 := fun hb => ha (lt_of_le_of_lt hab hb)
        simp only [ha, hb, if_false]
        exact EReal.coe_le_coe_iff.mpr (Real.sqrt_le_sqrt hab)

/-- The square root commutes with a finite infimum (the empty infimum is the top element, which it fixes). -/
theorem sqrt_inf {ι : Type*} (s : Finset ι) (g : ι → EReal) :
    Ideal.sqrt (s.inf g) = s.inf fun i => Ideal.sqrt (g i) :=
  Finset.apply_inf_eq_inf_comp_of_linearOrder Ideal.sqrt sqrt_mono Ideal.sqrt_top

/-- A finite infimum of nonnegative extended reals is nonnegative, so clamping it at zero does nothing. -/
theorem max_inf_zero {ι : Type*} (s : Finset ι) (g : ι → EReal) (hg : ∀ i, 0 ≤ g i) :
    max (s.inf g) 0 = s.inf g :=
  max_eq_left (Finset.le_inf fun i _ => hg i)

/-- The expansion of the square, on real entries. -/
theorem expand_real (a b c d : ℝ) :
    ((a : EReal) - c) * ((a : EReal) - c) + ((b : EReal) - d) * ((b : EReal) - d)
      = (((a : EReal) * a + (b : EReal) * b) + ((c : EReal) * c + (d : EReal) * d))
        - 2 * ((a : EReal) * c + (b : EReal) * d) := by
  have h2 : (2 : EReal) = ((2 : ℝ) : EReal) := rfl
  rw [h2]
  simp only [← EReal.coe_mul, ← EReal.coe_add, ← EReal.coe_sub]
  congr 1
  ring

/-- The clamped squared distance is nonnegative. -/
theorem d2_nonneg (fp ap ft at_ : FVec Ideal S64x2048 .f32) (b : Fin 64) (i j : Fin 2048) :
    0 ≤ d2 fp ap ft at_ b i j := le_max_right _ _

/-- On real entries the entrywise distance of the expanded form is the square root of the clamped squared distance. -/
theorem r2_eq_sqrt_d2 (fp ap ft at_ : FVec Ideal S64x2048 .f32)
    (hfp : ∀ z, ∃ r : ℝ, fp z = (r : EReal)) (hap : ∀ z, ∃ r : ℝ, ap z = (r : EReal))
    (hft : ∀ z, ∃ r : ℝ, ft z = (r : EReal)) (hat : ∀ z, ∃ r : ℝ, at_ z = (r : EReal))
    (b : Fin 64) (i j : Fin 2048) :
    r2 fp ap ft at_ b i j = Ideal.sqrt (d2 fp ap ft at_ b i j) := by
  obtain ⟨a, ha⟩ := hfp (ix2 b i)
  obtain ⟨a', ha'⟩ := hap (ix2 b i)
  obtain ⟨c, hc⟩ := hft (ix2 b j)
  obtain ⟨c', hc'⟩ := hat (ix2 b j)
  unfold r2 d2
  rw [ha, ha', hc, hc', expand_real]

/-- First result: square root of the clamped minimum over predicted tokens = minimum of the entrywise distances. -/
theorem kres1_eq_rres1 (fp ap ft at_ : FVec Ideal S64x2048 .f32)
    (hfp : ∀ z, ∃ r : ℝ, fp z = (r : EReal)) (hap : ∀ z, ∃ r : ℝ, ap z = (r : EReal))
    (hft : ∀ z, ∃ r : ℝ, ft z = (r : EReal)) (hat : ∀ z, ∃ r : ℝ, at_ z = (r : EReal)) :
    kres1 fp ap ft at_ = rres1 fp ap ft at_ := by
  funext z
  unfold kres1 rres1 kmin1
  rw [max_inf_zero _ _ (fun i => d2_nonneg fp ap ft at_ _ i _), sqrt_inf]
  refine congrArg _ (funext fun i => ?_)
  exact (r2_eq_sqrt_d2 fp ap ft at_ hfp hap hft hat _ i _).symm

/-- Second result: the same with the minimum over target tokens. -/
theorem kres2_eq_rres2 (fp ap ft at_ : FVec Ideal S64x2048 .f32)
    (hfp : ∀ z, ∃ r : ℝ, fp z = (r : EReal)) (hap : ∀ z, ∃ r : ℝ, ap z = (r : EReal))
    (hft : ∀ z, ∃ r : ℝ, ft z = (r : EReal)) (hat : ∀ z, ∃ r : ℝ, at_ z = (r : EReal)) :
    kres2 fp ap ft at_ = rres2 fp ap ft at_ := by
  funext z
  unfold kres2 rres2 kmin2
  rw [max_inf_zero _ _ (fun j => d2_nonneg fp ap ft at_ _ _ j), sqrt_inf]
  refine congrArg _ (funext fun j => ?_)
  exact (r2_eq_sqrt_d2 fp ap ft at_ hfp hap hft hat _ _ j).symm

end Chamfer

end
-- ==== Proof.lean ====
/- The proof of the claim: both programs run and leave their arguments unchanged (the three frames), the idealized
   kernel is the printed kernel's own text read at the ideal instance (nothing was rewritten), and at the ideal instance
   the idealized kernel and the idealized reference end with the same number when the inputs are finite.

   The kernel keeps, for each batch row, the minimum over predicted tokens (per target token) and over target tokens
   (per predicted token) of the clamped squared distance (fp - ft)^2 + (ap - at)^2, tile by tile, and takes the square
   root of the clamped minima afterwards; the reference expands the square as p2 + t2 - 2 (fp ft + ap at), takes the
   root entry by entry and then the minima. For real entries the two squared distances agree, and the root, being
   monotone, commutes with a minimum over a nonempty finite set; both then average in the same way. -/
import proofs.«137396_j22797686407325_2_alg».proof.Defs
import proofs.«137396_j22797686407325_2_alg».proof.Proof.Gen.Kernel
import proofs.«137396_j22797686407325_2_alg».proof.Proof.Gen.KernelIdeal
import proofs.«137396_j22797686407325_2_alg».proof.Proof.Gen.ReferenceIdeal
import proofs.«137396_j22797686407325_2_alg».proof.Proof.Gen.ReferenceIdeal.Run
import proofs.«137396_j22797686407325_2_alg».proof.Proof.Gen.Pre_finite_inputs
import proofs.«137396_j22797686407325_2_alg».proof.Proof.K.Body
import proofs.«137396_j22797686407325_2_alg».proof.Proof.KI.Run
import proofs.«137396_j22797686407325_2_alg».proof.Proof.KI.Value4Final
import proofs.«137396_j22797686407325_2_alg».proof.Proof.KI.Value5Final
import proofs.«137396_j22797686407325_2_alg».proof.Proof.KI.Prefix
import proofs.«137396_j22797686407325_2_alg».proof.Proof.KI.Pre
import proofs.«137396_j22797686407325_2_alg».proof.Proof.Ref.Value
import proofs.«137396_j22797686407325_2_alg».proof.Proof.Math
import Idealize.ShloMosaic.Adequacy
import Idealize.ShloMosaic.Init

set_option maxRecDepth 16384

noncomputable section

namespace Cert.Proof

open Idealize.ShloMosaic Idealize.SL.Sem

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- For finite inputs the kernel program's result, the averaging of the clamped roots of its two arrays of minima, is
    the averaging of the reference's two arrays. -/
theorem value_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Chamfer.tail Cert.KernelIdeal.Gen.reducesTo_S64x2048_S64_d1 Cert.KernelIdeal.Gen.h_S_ Cert.KernelIdeal.Gen.bcast_S_S64
        Cert.KernelIdeal.Gen.reducesTo_S64_S_d0
        (Cert.KernelIdeal.Hand.clampRoot ((Cert.KernelIdeal.Hand.dats m 0 c).arrAt 4 Cert.KernelIdeal.cfg0.N))
        (Cert.KernelIdeal.Hand.clampRoot ((Cert.KernelIdeal.Hand.dats m 0 c).arrAt 5 Cert.KernelIdeal.cfg0.N))
      = Chamfer.tail Cert.ReferenceIdeal.Gen.reducesTo_S64x2048_S64_d1 Cert.ReferenceIdeal.Gen.h_S_ Cert.ReferenceIdeal.Gen.bcast_S_S64
        Cert.ReferenceIdeal.Gen.reducesTo_S64_S_d0
        (Chamfer.rres1 (Chamfer.lo (m ((c.tc : Thread Cert.KernelIdeal.nD Cert.KernelIdeal.τ).loc Cert.KernelIdeal.main_arg0)))
          (Chamfer.hi (m ((c.tc : Thread Cert.KernelIdeal.nD Cert.KernelIdeal.τ).loc Cert.KernelIdeal.main_arg0)))
          (Chamfer.lo (m ((c.tc : Thread Cert.KernelIdeal.nD Cert.KernelIdeal.τ).loc Cert.KernelIdeal.main_arg1)))
          (Chamfer.hi (m ((c.tc : Thread Cert.KernelIdeal.nD Cert.KernelIdeal.τ).loc Cert.KernelIdeal.main_arg1))))
        (Chamfer.rres2 (Chamfer.lo (m ((c.tc : Thread Cert.KernelIdeal.nD Cert.KernelIdeal.τ).loc Cert.KernelIdeal.main_arg0)))
          (Chamfer.hi (m ((c.tc : Thread Cert.KernelIdeal.nD Cert.KernelIdeal.τ).loc Cert.KernelIdeal.main_arg0)))
          (Chamfer.lo (m ((c.tc : Thread Cert.KernelIdeal.nD Cert.KernelIdeal.τ).loc Cert.KernelIdeal.main_arg1)))
          (Chamfer.hi (m ((c.tc : Thread Cert.KernelIdeal.nD Cert.KernelIdeal.τ).loc Cert.KernelIdeal.main_arg1)))) := by
  obtain ⟨hx, hy⟩ := Cert.KernelIdeal.Hand.finite_of_pre m hpre c
  rw [Cert.KernelIdeal.Hand.clampRoot_kres1 _ _ _ _ _ (Cert.KernelIdeal.Hand.final4 m c),
    Cert.KernelIdeal.Hand.clampRoot_kres2 _ _ _ _ _ (Cert.KernelIdeal.Hand.final5 m c),
    Cert.KernelIdeal.Hand.V_main_v0, Cert.KernelIdeal.Hand.V_main_v1, Cert.KernelIdeal.Hand.V_main_v2, Cert.KernelIdeal.Hand.V_main_v3,
    Chamfer.kres1_eq_rres1 _ _ _ _ (Cert.KernelIdeal.Hand.lo_real _ hx) (Cert.KernelIdeal.Hand.hi_real _ hx)
      (Cert.KernelIdeal.Hand.lo_real _ hy) (Cert.KernelIdeal.Hand.hi_real _ hy),
    Chamfer.kres2_eq_rres2 _ _ _ _ (Cert.KernelIdeal.Hand.lo_real _ hx) (Cert.KernelIdeal.Hand.hi_real _ hx)
      (Cert.KernelIdeal.Hand.lo_real _ hy) (Cert.KernelIdeal.Hand.hi_real _ hy)]

theorem algebraic : Cert.algebraic_KernelIdeal_ReferenceIdeal := by
  intro m ρ m' ρ' hpre hagree
  refine ⟨_, (θ_run Cert.KernelIdeal.defs _ _).mono (fun _ h c => ⟨(h c).1.trans (value_eq m hpre c), (h c).2⟩)
    (Cert.KernelIdeal.Hand.kernel_run m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.res_eq m' c, (hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
